-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S1025x2048 : Shape := ⟨2, ![1025, 2048]⟩
abbrev S84x1025 : Shape := ⟨2, ![84, 1025]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S1025x2048 : S_.BroadcastsInDim S1025x2048 (![] : Fin 0 → Fin S1025x2048.rank)
  reducesTo_S1025x2048_S_d0_1 : S1025x2048.ReducesTo [0, 1] S_
  bcast_S_S84x1025 : S_.BroadcastsInDim S84x1025 (![] : Fin 0 → Fin S84x1025.rank)
  reducesTo_S84x1025_S_d0_1 : S84x1025.ReducesTo [0, 1] S_

variable [Facts]

def fn_part1 {F : FTy → Type} [FloatOps F] (main_arg4 : FVec F S84x1025 .f32) (main_v13 : IVec S_ 1) (main_v16 : IVec S84x1025 1) : IVec S_ 1 :=
  let main_c_5 : IVec S_ 1 := constantI S_ 1 1#1
  let main_v17 : IVec S_ 1 := (fun x v => Host.reduce IntOp.andi x v reducesTo_S84x1025_S_d0_1 h_S_) main_v16 main_c_5
  let main_v18 : IVec S_ 1 := andi main_v13 main_v17
  let main_v19 : FVec F S84x1025 .f32 := Host.absf main_arg4
  let main_cst_6 : FVec F S_ .f32 := constant S_ .f32 0x7F800000#32
  let main_v20 : FVec F S84x1025 .f32 := broadcastInDim S84x1025 ![] bcast_S_S84x1025 main_cst_6
  let main_v21 : IVec S84x1025 1 := cmpf .olt main_v19 main_v20
  let main_c_7 : IVec S_ 1 := constantI S_ 1 1#1
  let main_v22 : IVec S_ 1 := (fun x v => Host.reduce IntOp.andi x v reducesTo_S84x1025_S_d0_1 h_S_) main_v21 main_c_7
  let main_v23 : IVec S_ 1 := andi main_v18 main_v22
  main_v23

def fn {F : FTy → Type} [FloatOps F] (main_arg0 : FVec F S8388608 .f32) (main_arg1 : FVec F S1025x2048 .f32) (main_arg2 : FVec F S1025x2048 .f32) (main_arg3 : FVec F S84x1025 .f32) (main_arg4 : FVec F S84x1025 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S1025x2048 .f32 := Host.absf main_arg1
  let main_cst_0 : FVec F S_ .f32 := constant S_ .f32 0x7F800000#32
  let main_v5 : FVec F S1025x2048 .f32 := broadcastInDim S1025x2048 ![] bcast_S_S1025x2048 main_cst_0
  let main_v6 : IVec S1025x2048 1 := cmpf .olt main_v4 main_v5
  let main_c_1 : IVec S_ 1 := constantI S_ 1 1#1
  let main_v7 : IVec S_ 1 := (fun x v => Host.reduce IntOp.andi x v reducesTo_S1025x2048_S_d0_1 h_S_) main_v6 main_c_1
  let main_v8 : IVec S_ 1 := andi main_v3 main_v7
  let main_v9 : FVec F S1025x2048 .f32 := Host.absf main_arg2
  let main_cst_2 : FVec F S_ .f32 := constant S_ .f32 0x7F800000#32
  let main_v10 : FVec F S1025x2048 .f32 := broadcastInDim S1025x2048 ![] bcast_S_S1025x2048 main_cst_2
  let main_v11 : IVec S1025x2048 1 := cmpf .olt main_v9 main_v10
  let main_c_3 : IVec S_ 1 := constantI S_ 1 1#1
  let main_v12 : IVec S_ 1 := (fun x v => Host.reduce IntOp.andi x v reducesTo_S1025x2048_S_d0_1 h_S_) main_v11 main_c_3
  let main_v13 : IVec S_ 1 := andi main_v8 main_v12
  let main_v14 : FVec F S84x1025 .f32 := Host.absf main_arg3
  let main_cst_4 : FVec F S_ .f32 := constant S_ .f32 0x7F800000#32
  let main_v15 : FVec F S84x1025 .f32 := broadcastInDim S84x1025 ![] bcast_S_S84x1025 main_cst_4
  let main_v16 : IVec S84x1025 1 := cmpf .olt main_v14 main_v15
  fn_part1 (F := F) main_arg4 main_v13 main_v16
-- ==== Kernel.lean ====
abbrev S8388608 : Shape := ⟨1, ![8388608]⟩
abbrev S1025x2048 : Shape := ⟨2, ![1025, 2048]⟩
abbrev S84x1025 : Shape := ⟨2, ![84, 1025]⟩
abbrev S84x2048 : Shape := ⟨2, ![84, 2048]⟩
abbrev S_ : Shape := ⟨0, ![]⟩
abbrev S128x2048 : Shape := ⟨2, ![128, 2048]⟩
abbrev S2048x128 : Shape := ⟨2, ![2048, 128]⟩
abbrev S2048x256 : Shape := ⟨2, ![2048, 256]⟩
abbrev S16384x512 : Shape := ⟨2, ![16384, 512]⟩
abbrev S16392x512 : Shape := ⟨2, ![16392, 512]⟩
abbrev S16384x128 : Shape := ⟨2, ![16384, 128]⟩
abbrev S2048x512 : Shape := ⟨2, ![2048, 512]⟩
abbrev S512x256 : Shape := ⟨2, ![512, 256]⟩
abbrev S16381x84 : Shape := ⟨2, ![16381, 84]⟩
abbrev S84x16381 : Shape := ⟨2, ![84, 16381]⟩
abbrev S1x84x16381 : Shape := ⟨3, ![1, 84, 16381]⟩

abbrev nBuf : Space → Nat
  | .hbm => 37
  | .vmem => 11
  | .smem => 0
  | _ => 0

abbrev bufTy : (tb : Table) → Fin (tcTables nBuf tb) → BufTy
  | .hbm, ⟨0, _⟩ => ⟨S8388608, .f32⟩
  | .hbm, ⟨1, _⟩ => ⟨S1025x2048, .f32⟩
  | .hbm, ⟨2, _⟩ => ⟨S1025x2048, .f32⟩
  | .hbm, ⟨3, _⟩ => ⟨S84x1025, .f32⟩
  | .hbm, ⟨4, _⟩ => ⟨S84x1025, .f32⟩
  | .hbm, ⟨5, _⟩ => ⟨S84x2048, .f32⟩
  | .hbm, ⟨6, _⟩ => ⟨S84x2048, .f32⟩
  | .hbm, ⟨7, _⟩ => ⟨S84x2048, .f32⟩
  | .hbm, ⟨8, _⟩ => ⟨S84x2048, .f32⟩
  | .hbm, ⟨9, _⟩ => ⟨S84x2048, .f32⟩
  | .hbm, ⟨10, _⟩ => ⟨S84x2048, .f32⟩
  | .hbm, ⟨11, _⟩ => ⟨S_, .i32⟩
  | .hbm, ⟨12, _⟩ => ⟨S_, .f32⟩
  | .hbm, ⟨13, _⟩ => ⟨S128x2048, .f32⟩
  | .hbm, ⟨14, _⟩ => ⟨S_, .i32⟩
  | .hbm, ⟨15, _⟩ => ⟨S_, .f32⟩
  | .hbm, ⟨16, _⟩ => ⟨S128x2048, .f32⟩
  | .hbm, ⟨17, _⟩ => ⟨S2048x128, .f32⟩
  | .hbm, ⟨18, _⟩ => ⟨S2048x128, .f32⟩
  | .hbm, ⟨19, _⟩ => ⟨S2048x256, .f32⟩
  | .hbm, ⟨20, _⟩ => ⟨S2048x256, .bf16⟩
  | .hbm, ⟨21, _⟩ => ⟨S_, .i32⟩
  | .hbm, ⟨22, _⟩ => ⟨S_, .f32⟩
  | .hbm, ⟨23, _⟩ => ⟨S8388608, .f32⟩
  | .hbm, ⟨24, _⟩ => ⟨S16384x512, .f32⟩
  | .hbm, ⟨25, _⟩ => ⟨S_, .i32⟩
  | .hbm, ⟨26, _⟩ => ⟨S_, .f32⟩
  | .hbm, ⟨27, _⟩ => ⟨S16392x512, .f32⟩
  | .hbm, ⟨28, _⟩ => ⟨S16392x512, .bf16⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S16384x512, .bf16⟩
  | .hbm, ⟨33, _⟩ => ⟨S16384x128, .f32⟩
  | .hbm, ⟨34, _⟩ => ⟨S16381x84, .f32⟩
  | .hbm, ⟨35, _⟩ => ⟨S84x16381, .f32⟩
  | .hbm, ⟨36, _⟩ => ⟨S1x84x16381, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x256, .bf16⟩
  | .local _ .vmem, ⟨9, _⟩ => ⟨S2048x128, .f32⟩
  | .local _ .vmem, ⟨10, _⟩ => ⟨S2048x128, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call2_v0 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call3_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S84x2048_S128x2048_0440_000 : S84x2048.Pads (![0, 0] : Fin 2 → Nat) ![44, 0] ![0, 0] S128x2048
  h_S_ : 0 < S_.numel
  transposes_S128x2048_S2048x128_1_0 : S128x2048.Transposes [1, 0] S2048x128
  concatenates_S2048x128_S2048x128_S2048x256_d1 : Shape.Concatenates [S2048x128, S2048x128] S2048x256 1
  bitsLt_bf16_f32 : FTy.bits .bf16 < FTy.bits .f32
  pads_S8388608_S8388608_000 : S8388608.Pads (![0] : Fin 1 → Nat) ![0] ![0] S8388608
  shapeCasts_S8388608_S16384x512 : S8388608.ShapeCasts S16384x512
  pads_S16384x512_S16392x512_080_000 : S16384x512.Pads (![0, 0] : Fin 2 → Nat) ![8, 0] ![0, 0] S16392x512
  slices_S16392x512_S16384x512_0_0 : S16392x512.Slices ![0, 0] S16384x512
  slices_S16392x512_S16384x512_1_0 : S16392x512.Slices ![1, 0] S16384x512
  slices_S16392x512_S16384x512_2_0 : S16392x512.Slices ![2, 0] S16384x512
  slices_S16392x512_S16384x512_3_0 : S16392x512.Slices ![3, 0] S16384x512
  inb_S2048x256_S512x256_0_0 : ∀ a, (![0, 0] : Fin 2 → Nat) a + S512x256.size a ≤ S2048x256.size a
  h_S512x256 : 0 < S512x256.numel
  shapeCasts_S512x256_S512x256 : S512x256.ShapeCasts S512x256
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x256_S512x256_512_0 : ∀ a, (![512, 0] : Fin 2 → Nat) a + S512x256.size a ≤ S2048x256.size a
  inb_S2048x256_S512x256_1024_0 : ∀ a, (![1024, 0] : Fin 2 → Nat) a + S512x256.size a ≤ S2048x256.size a
  inb_S2048x256_S512x256_1536_0 : ∀ a, (![1536, 0] : Fin 2 → Nat) a + S512x256.size a ≤ S2048x256.size a
  slices_S2048x256_o0_0_S2048x128 : S2048x256.Slices ![0, 0] S2048x128
  slices_S2048x256_o0_128_S2048x128 : S2048x256.Slices ![0, 128] S2048x128
  inb_S2048x128_S2048x128_0_0 : ∀ a, (![0, 0] : Fin 2 → Nat) a + S2048x128.size a ≤ S2048x128.size a
  h_S2048x128 : 0 < S2048x128.numel
  slices_S16384x128_S16381x84_0_0 : S16384x128.Slices ![0, 0] S16381x84
  transposes_S16381x84_S84x16381_1_0 : S16381x84.Transposes [1, 0] S84x16381
  bcast_S84x16381_S1x84x16381_1_2 : S84x16381.BroadcastsInDim S1x84x16381 (![1, 2] : Fin 2 → Fin S1x84x16381.rank)
  dot_S84x1025_S1025x2048_S84x2048_1_0_0_1_n_n_wf : DotDims.WF S84x1025 S1025x2048 S84x2048 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .bf16 = 32 ∨ (Rect.block (s := S16384x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .bf16 = 32 ∨ (Rect.block (s := S16384x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .bf16 = 32 ∨ (Rect.block (s := S16384x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .f32 = 32 ∨ (Rect.block (s := S16384x128) S2048x128.size (cc0_transform_5 i) (hinb0_5 i)).WholeWords (EltTy.packing .f32)

variable [Facts₀]

def dot_S84x1025_S1025x2048_S84x2048_1_0_0_1_n_n : DotDims S84x1025 S1025x2048 S84x2048 where
  lhsContracting := [1]
  rhsContracting := [0]
  lhsNonContracting := [0]
  rhsNonContracting := [1]
  lhsBatch := []
  rhsBatch := []
  wf := dot_S84x1025_S1025x2048_S84x2048_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v16) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8388608 : Shape := ⟨1, ![8388608]⟩
abbrev S1025x2048 : Shape := ⟨2, ![1025, 2048]⟩
abbrev S84x1025 : Shape := ⟨2, ![84, 1025]⟩
abbrev S16381 : Shape := ⟨1, ![16381]⟩
abbrev S16381x1 : Shape := ⟨2, ![16381, 1]⟩
abbrev S_ : Shape := ⟨0, ![]⟩
abbrev S2048 : Shape := ⟨1, ![2048]⟩
abbrev S1x2048 : Shape := ⟨2, ![1, 2048]⟩
abbrev S16381x2048 : Shape := ⟨2, ![16381, 2048]⟩
abbrev S16381x2048x1 : Shape := ⟨3, ![16381, 2048, 1]⟩
abbrev S1025x16381 : Shape := ⟨2, ![1025, 16381]⟩
abbrev S84x16381 : Shape := ⟨2, ![84, 16381]⟩
abbrev S1x84x16381 : Shape := ⟨3, ![1, 84, 16381]⟩

abbrev nBuf : Space → Nat
  | .hbm => 37
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S1025x2048, .f32⟩
  | .hbm, ⟨2, _⟩ => ⟨S1025x2048, .f32⟩
  | .hbm, ⟨3, _⟩ => ⟨S84x1025, .f32⟩
  | .hbm, ⟨4, _⟩ => ⟨S84x1025, .f32⟩
  | .hbm, ⟨5, _⟩ => ⟨S16381, .i32⟩
  | .hbm, ⟨6, _⟩ => ⟨S16381x1, .i32⟩
  | .hbm, ⟨7, _⟩ => ⟨S_, .i32⟩
  | .hbm, ⟨8, _⟩ => ⟨S16381x1, .i32⟩
  | .hbm, ⟨9, _⟩ => ⟨S16381x1, .i32⟩
  | .hbm, ⟨10, _⟩ => ⟨S2048, .i32⟩
  | .hbm, ⟨11, _⟩ => ⟨S1x2048, .i32⟩
  | .hbm, ⟨12, _⟩ => ⟨S16381x2048, .i32⟩
  | .hbm, ⟨13, _⟩ => ⟨S16381x2048, .i32⟩
  | .hbm, ⟨14, _⟩ => ⟨S16381x2048, .i32⟩
  | .hbm, ⟨15, _⟩ => ⟨S_, .i32⟩
  | .hbm, ⟨16, _⟩ => ⟨S16381x2048, .i32⟩
  | .hbm, ⟨17, _⟩ => ⟨S16381x2048, .i1⟩
  | .hbm, ⟨18, _⟩ => ⟨S_, .i32⟩
  | .hbm, ⟨19, _⟩ => ⟨S16381x2048, .i32⟩
  | .hbm, ⟨20, _⟩ => ⟨S16381x2048, .i32⟩
  | .hbm, ⟨21, _⟩ => ⟨S16381x2048, .i32⟩
  | .hbm, ⟨22, _⟩ => ⟨S16381x2048x1, .i32⟩
  | .hbm, ⟨23, _⟩ => ⟨S16381x2048, .f32⟩
  | .hbm, ⟨24, _⟩ => ⟨S1025x16381, .f32⟩
  | .hbm, ⟨25, _⟩ => ⟨S1025x16381, .f32⟩
  | .hbm, ⟨26, _⟩ => ⟨S84x16381, .f32⟩
  | .hbm, ⟨27, _⟩ => ⟨S84x16381, .f32⟩
  | .hbm, ⟨28, _⟩ => ⟨S84x16381, .f32⟩
  | .hbm, ⟨29, _⟩ => ⟨S84x16381, .f32⟩
  | .hbm, ⟨30, _⟩ => ⟨S84x16381, .f32⟩
  | .hbm, ⟨31, _⟩ => ⟨S84x16381, .f32⟩
  | .hbm, ⟨32, _⟩ => ⟨S84x16381, .f32⟩
  | .hbm, ⟨33, _⟩ => ⟨S84x16381, .f32⟩
  | .hbm, ⟨34, _⟩ => ⟨S84x16381, .f32⟩
  | .hbm, ⟨35, _⟩ => ⟨S84x16381, .f32⟩
  | .hbm, ⟨36, _⟩ => ⟨S1x84x16381, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  bcast_S16381_S16381x1_0 : S16381.BroadcastsInDim S16381x1 (![0] : Fin 1 → Fin S16381x1.rank)
  bcast_S_S16381x1 : S_.BroadcastsInDim S16381x1 (![] : Fin 0 → Fin S16381x1.rank)
  bcast_S2048_S1x2048_1 : S2048.BroadcastsInDim S1x2048 (![1] : Fin 1 → Fin S1x2048.rank)
  bcast_S16381x1_S16381x2048_0_1 : S16381x1.BroadcastsInDim S16381x2048 (![0, 1] : Fin 2 → Fin S16381x2048.rank)
  bcast_S1x2048_S16381x2048_0_1 : S1x2048.BroadcastsInDim S16381x2048 (![0, 1] : Fin 2 → Fin S16381x2048.rank)
  bcast_S_S16381x2048 : S_.BroadcastsInDim S16381x2048 (![] : Fin 0 → Fin S16381x2048.rank)
  bcast_S16381x2048_S16381x2048x1_0_1 : S16381x2048.BroadcastsInDim S16381x2048x1 (![0, 1] : Fin 2 → Fin S16381x2048x1.rank)
  bcast_S84x16381_S1x84x16381_1_2 : S84x16381.BroadcastsInDim S1x84x16381 (![1, 2] : Fin 2 → Fin S1x84x16381.rank)
  gather_S8388608_S16381x2048x1_S16381x2048_n_0_n_n_0_2_1_wf : GatherDims.WF S8388608 S16381x2048x1 S16381x2048 [] [0] [] [0] [] 2 ![1]
  dot_S1025x2048_S16381x2048_S1025x16381_1_1_0_0_n_n_wf : DotDims.WF S1025x2048 S16381x2048 S1025x16381 [1] [1] [0] [0] [] []
  dot_S84x1025_S1025x16381_S84x16381_1_0_0_1_n_n_wf : DotDims.WF S84x1025 S1025x16381 S84x16381 [1] [0] [0] [1] [] []

variable [Facts₀]

def gather_S8388608_S16381x2048x1_S16381x2048_n_0_n_n_0_2_1 : GatherDims S8388608 S16381x2048x1 S16381x2048 where
  offsetDims := []
  collapsedSliceDims := [0]
  operandBatchingDims := []
  startIndicesBatchingDims := []
  startIndexMap := [0]
  indexVectorDim := 2
  sliceSizes := ![1]
  wf := gather_S8388608_S16381x2048x1_S16381x2048_n_0_n_n_0_2_1_wf
def dot_S1025x2048_S16381x2048_S1025x16381_1_1_0_0_n_n : DotDims S1025x2048 S16381x2048 S1025x16381 where
  lhsContracting := [1]
  rhsContracting := [1]
  lhsNonContracting := [0]
  rhsNonContracting := [0]
  lhsBatch := []
  rhsBatch := []
  wf := dot_S1025x2048_S16381x2048_S1025x16381_1_1_0_0_n_n_wf
def dot_S84x1025_S1025x16381_S84x16381_1_0_0_1_n_n : DotDims S84x1025 S1025x16381 S84x16381 where
  lhsContracting := [1]
  rhsContracting := [0]
  lhsNonContracting := [0]
  rhsNonContracting := [1]
  lhsBatch := []
  rhsBatch := []
  wf := dot_S84x1025_S1025x16381_S84x16381_1_0_0_1_n_n_wf

class Facts : Prop extends Facts₀ where

variable [Facts]
-- ==== Proof.Spec.lean ====
/-
  The constant-Q magnitude written twice, as functions of the five argument arrays over the extended reals.

  The signal `x` has 8388608 samples; frame `f` (of 16381) is the 2048 samples `x[512 f + n]`. `wc`, `ws` are the cosine
  and sine tables [1025, 2048] of a discrete Fourier transform, `kr`, `ki` the real and imaginary parts [84, 1025] of the
  constant-Q kernel in the frequency domain.

  Two-stage form (`refOut`): transform every frame to 1025 frequency bins (`dft`), then project the bins on the 84
  constant-Q bins with a complex product; the magnitude is the square root of the sum of the two squares.

  Folded form (`kerOut`): project the tables first (`coefRe`, `coefIm`: [84, 2048] coefficients), then take one inner
  product per frame and bin, accumulated hop by hop (a frame is four hops of 512 samples) from zero.

  The two agree when every entry is a real number (Algebra.lean): both are the same finite double sum, in two orders.
-/
import Idealize.ShloMosaic.Lib.ValueIdx
import Idealize.ShloMosaic.PureOps.Ideal

open scoped BigOperators

noncomputable section

namespace Cert.Cqt

open Idealize.ShloMosaic Idealize.ShloMosaic.ValueIdx

/-- The signal. -/
abbrev SX : Shape := ⟨1, ![8388608]⟩
/-- A Fourier table: frequency bin by sample position. -/
abbrev SF : Shape := ⟨2, ![1025, 2048]⟩
/-- A constant-Q kernel: constant-Q bin by frequency bin. -/
abbrev SK : Shape := ⟨2, ![84, 1025]⟩
/-- The result: one leading unit axis, constant-Q bin, frame. -/
abbrev SO : Shape := ⟨3, ![1, 84, 16381]⟩

/-- Sample `n` of frame `f` is entry `512 f + n` of the signal. -/
abbrev smp (f : Fin 16381) (n : Fin 2048) : SX.Idx :=
  ix1 ⟨512 * f.val + n.val, by have := f.isLt; have := n.isLt; omega⟩

/-- Position `512 r + j` of a frame: sample `j` of its hop `r`. -/
abbrev pos (r : Fin 4) (j : Fin 512) : Fin 2048 :=
  ⟨512 * r.val + j.val, by have := r.isLt; have := j.isLt; omega⟩

/-! ## The two-stage form -/

/-- Frequency bin `b` of frame `f` against the table `w`. -/
def dft (x : SX.Idx → EReal) (w : SF.Idx → EReal) (b : Fin 1025) (f : Fin 16381) : EReal :=
  ∑ n : Fin 2048, w (ix2 b n) * x (smp f n)

/-- Real part of constant-Q bin `k` of frame `f`. -/
def refRe (x : SX.Idx → EReal) (wc ws : SF.Idx → EReal) (kr ki : SK.Idx → EReal) (k : Fin 84) (f : Fin 16381) : EReal :=
  (∑ b : Fin 1025, kr (ix2 k b) * dft x wc b f) - ∑ b : Fin 1025, ki (ix2 k b) * dft x ws b f

/-- Imaginary part of constant-Q bin `k` of frame `f`. -/
def refIm (x : SX.Idx → EReal) (wc ws : SF.Idx → EReal) (kr ki : SK.Idx → EReal) (k : Fin 84) (f : Fin 16381) : EReal :=
  (∑ b : Fin 1025, kr (ix2 k b) * dft x ws b f) + ∑ b : Fin 1025, ki (ix2 k b) * dft x wc b f

/-- The magnitude, two-stage form. -/
def refOut (x : SX.Idx → EReal) (wc ws : SF.Idx → EReal) (kr ki : SK.Idx → EReal) : SO.Idx → EReal := fun i =>
  Ideal.sqrt (refRe x wc ws kr ki ⟨(i 1).val, (i 1).isLt⟩ ⟨(i 2).val, (i 2).isLt⟩ * refRe x wc ws kr ki ⟨(i 1).val, (i 1).isLt⟩ ⟨(i 2).val, (i 2).isLt⟩
    + refIm x wc ws kr ki ⟨(i 1).val, (i 1).isLt⟩ ⟨(i 2).val, (i 2).isLt⟩ * refIm x wc ws kr ki ⟨(i 1).val, (i 1).isLt⟩ ⟨(i 2).val, (i 2).isLt⟩)

/-! ## The folded form -/

/-- Real coefficient of constant-Q bin `k` at sample position `n`. -/
def coefRe (wc ws : SF.Idx → EReal) (kr ki : SK.Idx → EReal) (k : Fin 84) (n : Fin 2048) : EReal :=
  (∑ b : Fin 1025, kr (ix2 k b) * wc (ix2 b n)) - ∑ b : Fin 1025, ki (ix2 k b) * ws (ix2 b n)

/-- Imaginary coefficient of constant-Q bin `k` at sample position `n`. -/
def coefIm (wc ws : SF.Idx → EReal) (kr ki : SK.Idx → EReal) (k : Fin 84) (n : Fin 2048) : EReal :=
  (∑ b : Fin 1025, kr (ix2 k b) * ws (ix2 b n)) + ∑ b : Fin 1025, ki (ix2 k b) * wc (ix2 b n)

/-- Hop `r`'s share of the inner product of frame `f` with the coefficients `C`. -/
def hopSum (x : SX.Idx → EReal) (C : Fin 2048 → EReal) (f : Fin 16381) (r : Fin 4) : EReal :=
  ∑ j : Fin 512, x (smp f (pos r j)) * C (pos r j)

/-- The inner product of frame `f` with `C`, accumulated hop by hop from zero. -/
def acc (x : SX.Idx → EReal) (C : Fin 2048 → EReal) (f : Fin 16381) : EReal :=
  (((0 + hopSum x C f 0) + hopSum x C f 1) + hopSum x C f 2) + hopSum x C f 3

/-- The magnitude, folded form. -/
def kerOut (x : SX.Idx → EReal) (wc ws : SF.Idx → EReal) (kr ki : SK.Idx → EReal) : SO.Idx → EReal := fun i =>
  Ideal.sqrt (acc x (coefRe wc ws kr ki ⟨(i 1).val, (i 1).isLt⟩) ⟨(i 2).val, (i 2).isLt⟩ * acc x (coefRe wc ws kr ki ⟨(i 1).val, (i 1).isLt⟩) ⟨(i 2).val, (i 2).isLt⟩
    + acc x (coefIm wc ws kr ki ⟨(i 1).val, (i 1).isLt⟩) ⟨(i 2).val, (i 2).isLt⟩ * acc x (coefIm wc ws kr ki ⟨(i 1).val, (i 1).isLt⟩) ⟨(i 2).val, (i 2).isLt⟩)

/-! ## One tile of frames

  A tile is 2048 consecutive frames. Its four operand blocks `x0 … x3` [2048, 512] hold, for hop `r`, row `p` = the 512
  samples of hop `r` of the tile's frame `p`; the weight's four row blocks `w0 … w3` [512, 256] hold the coefficients of
  hop `r`, the real ones in columns 0–127 and the imaginary ones in columns 128–255. -/

/-- A block of hops: frame of the tile by sample of the hop. -/
abbrev SXB : Shape := ⟨2, ![2048, 512]⟩
/-- A row block of the weight: sample of the hop by column. -/
abbrev SWB : Shape := ⟨2, ![512, 256]⟩

/-- Column `c` of the tile's accumulator at frame `p`: the four hops' inner products added to zero in order. -/
def blockAcc (w0 w1 w2 w3 : SWB.Idx → EReal) (x0 x1 x2 x3 : SXB.Idx → EReal) (p : Fin 2048) (c : Fin 256) : EReal :=
  (((0 + ∑ j : Fin 512, x0 (ix2 p j) * w0 (ix2 j c)) + ∑ j : Fin 512, x1 (ix2 p j) * w1 (ix2 j c))
    + ∑ j : Fin 512, x2 (ix2 p j) * w2 (ix2 j c)) + ∑ j : Fin 512, x3 (ix2 p j) * w3 (ix2 j c)

/-- The tile's magnitude at frame `p`, column `q`: real part in column `q`, imaginary part in column `128 + q`. -/
def blockOut (w0 w1 w2 w3 : SWB.Idx → EReal) (x0 x1 x2 x3 : SXB.Idx → EReal) (p : Fin 2048) (q : Fin 128) : EReal :=
  Ideal.sqrt (blockAcc w0 w1 w2 w3 x0 x1 x2 x3 p ⟨q.val, by have := q.isLt; omega⟩ * blockAcc w0 w1 w2 w3 x0 x1 x2 x3 p ⟨q.val, by have := q.isLt; omega⟩
    + blockAcc w0 w1 w2 w3 x0 x1 x2 x3 p ⟨128 + q.val, by have := q.isLt; omega⟩ * blockAcc w0 w1 w2 w3 x0 x1 x2 x3 p ⟨128 + q.val, by have := q.isLt; omega⟩)

end Cert.Cqt

end
-- ==== Proof.Algebra.lean ====
/-
  The two forms of the constant-Q magnitude agree when every entry of the five argument arrays is a real number.

  Over the reals both forms are the same finite double sum taken in two orders:
    Σ_n x_n (Σ_b kr_b wc_{b,n} − Σ_b ki_b ws_{b,n}) = Σ_b kr_b (Σ_n wc_{b,n} x_n) − Σ_b ki_b (Σ_n ws_{b,n} x_n),
  and likewise for the imaginary part with a sum in place of the difference. The sum over the 2048 positions of a frame
  is the sum over its four hops of the sum over the 512 samples of the hop, along position = 512 · hop + sample, and
  adding the four hop sums to zero in order is that sum over the hops. The coercion of the reals into the extended
  reals commutes with products, sums, differences and finite sums, so the real identity carries over.
-/
import proofs.«133678_j64733747085470_2_alg».proof.Proof.Spec
import Mathlib.Data.EReal.Operations
import Mathlib.Algebra.BigOperators.Fin
import Mathlib.Algebra.BigOperators.Ring.Finset

open scoped BigOperators

noncomputable section

namespace Cert.Cqt

open Idealize.ShloMosaic Idealize.ShloMosaic.ValueIdx

/-! ## The coercion commutes with finite sums -/

/-- The coercion of a finite sum of reals is the finite sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The real identity over abstract finite index types -/

/-- Exchange of the two sums in one bilinear term. -/
theorem real_swap {B N : Type*} [Fintype B] [Fintype N] (a : B → ℝ) (c : B → N → ℝ) (y : N → ℝ) :
    ∑ n, y n * ∑ b, a b * c b n = ∑ b, a b * ∑ n, c b n * y n := by
  simp only [Finset.mul_sum]
  rw [Finset.sum_comm]
  exact Finset.sum_congr rfl fun b _ => Finset.sum_congr rfl fun n _ => by ring

/-- The real part: folding the tables first, or transforming the frame first. -/
theorem real_fold_sub {B N : Type*} [Fintype B] [Fintype N] (a b : B → ℝ) (c s : B → N → ℝ) (y : N → ℝ) :
    ∑ n, y n * ((∑ β, a β * c β n) - ∑ β, b β * s β n)
      = (∑ β, a β * ∑ n, c β n * y n) - ∑ β, b β * ∑ n, s β n * y n := by
  rw [← real_swap a c y, ← real_swap b s y, ← Finset.sum_sub_distrib]
  exact Finset.sum_congr rfl fun n _ => by ring

/-- The imaginary part: folding the tables first, or transforming the frame first. -/
theorem real_fold_add {B N : Type*} [Fintype B] [Fintype N] (a b : B → ℝ) (c s : B → N → ℝ) (y : N → ℝ) :
    ∑ n, y n * ((∑ β, a β * s β n) + ∑ β, b β * c β n)
      = (∑ β, a β * ∑ n, s β n * y n) + ∑ β, b β * ∑ n, c β n * y n := by
  rw [← real_swap a s y, ← real_swap b c y, ← Finset.sum_add_distrib]
  exact Finset.sum_congr rfl fun n _ => by ring

/-! ## A frame is four hops of 512 samples -/

/-- Hop and sample of the hop against position in the frame: `(r, j) ↦ 512 r + j`. -/
def posEquiv : Fin 4 × Fin 512 ≃ Fin 2048 where
  toFun p := pos p.1 p.2
  invFun n := (⟨n.val / 512, by have := n.isLt; omega⟩, ⟨n.val % 512, by omega⟩)
  left_inv := by
    rintro ⟨r, j⟩
    have hr := r.isLt
    have hj := j.isLt
    refine Prod.ext (Fin.ext ?_) (Fin.ext ?_)
    · show (512 * r.val + j.val) / 512 = r.val
      omega
    · show (512 * r.val + j.val) % 512 = j.val
      omega
  right_inv := by
    intro n
    refine Fin.ext ?_
    show 512 * (n.val / 512) + n.val % 512 = n.val
    omega

/-- The sum over the positions of a frame is the sum over the hops of the sums over the samples of a hop. -/
theorem sum_pos (g : Fin 2048 → ℝ) :
    ∑ n : Fin 2048, g n = ∑ r : Fin 4, ∑ j : Fin 512, g (pos r j) := by
  rw [← posEquiv.sum_comp g, Fintype.sum_prod_type]
  rfl

/-! ## Each form is the coercion of a real expression -/

/-- The hop-by-hop accumulation from zero is the coercion of the real inner product over the frame. -/
theorem acc_coe (X : SX.Idx → ℝ) (C : Fin 2048 → ℝ) (f : Fin 16381) :
    acc (fun i => (X i : EReal)) (fun n => (C n : EReal)) f
      = ((∑ n : Fin 2048, X (smp f n) * C n : ℝ) : EReal) := by
  rw [sum_pos, Fin.sum_univ_four]
  simp only [acc, hopSum, zero_add, EReal.coe_add, coe_finset_sum, EReal.coe_mul]

/-- The real coefficient is the coercion of the real one. -/
theorem coefRe_coe (WC WS : SF.Idx → ℝ) (KR KI : SK.Idx → ℝ) (k : Fin 84) (n : Fin 2048) :
    coefRe (fun i => (WC i : EReal)) (fun i => (WS i : EReal)) (fun i => (KR i : EReal)) (fun i => (KI i : EReal)) k n
      = (((∑ b : Fin 1025, KR (ix2 k b) * WC (ix2 b n)) - ∑ b : Fin 1025, KI (ix2 k b) * WS (ix2 b n) : ℝ) : EReal) := by
  simp only [coefRe, EReal.coe_sub, coe_finset_sum, EReal.coe_mul]

/-- The imaginary coefficient is the coercion of the real one. -/
theorem coefIm_coe (WC WS : SF.Idx → ℝ) (KR KI : SK.Idx → ℝ) (k : Fin 84) (n : Fin 2048) :
    coefIm (fun i => (WC i : EReal)) (fun i => (WS i : EReal)) (fun i => (KR i : EReal)) (fun i => (KI i : EReal)) k n
      = (((∑ b : Fin 1025, KR (ix2 k b) * WS (ix2 b n)) + ∑ b : Fin 1025, KI (ix2 k b) * WC (ix2 b n) : ℝ) : EReal) := by
  simp only [coefIm, EReal.coe_add, coe_finset_sum, EReal.coe_mul]

/-- A frequency bin of a frame is the coercion of the real one. -/
theorem dft_coe (X : SX.Idx → ℝ) (W : SF.Idx → ℝ) (b : Fin 1025) (f : Fin 16381) :
    dft (fun i => (X i : EReal)) (fun i => (W i : EReal)) b f
      = ((∑ n : Fin 2048, W (ix2 b n) * X (smp f n) : ℝ) : EReal) := by
  simp only [dft, coe_finset_sum, EReal.coe_mul]

/-- The real part of the two-stage form is the coercion of the real one. -/
theorem refRe_coe (X : SX.Idx → ℝ) (WC WS : SF.Idx → ℝ) (KR KI : SK.Idx → ℝ) (k : Fin 84) (f : Fin 16381) :
    refRe (fun i => (X i : EReal)) (fun i => (WC i : EReal)) (fun i => (WS i : EReal)) (fun i => (KR i : EReal))
        (fun i => (KI i : EReal)) k f
      = (((∑ b : Fin 1025, KR (ix2 k b) * ∑ n : Fin 2048, WC (ix2 b n) * X (smp f n))
          - ∑ b : Fin 1025, KI (ix2 k b) * ∑ n : Fin 2048, WS (ix2 b n) * X (smp f n) : ℝ) : EReal) := by
  simp only [refRe, dft_coe, EReal.coe_sub, coe_finset_sum, EReal.coe_mul]

/-- The imaginary part of the two-stage form is the coercion of the real one. -/
theorem refIm_coe (X : SX.Idx → ℝ) (WC WS : SF.Idx → ℝ) (KR KI : SK.Idx → ℝ) (k : Fin 84) (f : Fin 16381) :
    refIm (fun i => (X i : EReal)) (fun i => (WC i : EReal)) (fun i => (WS i : EReal)) (fun i => (KR i : EReal))
        (fun i => (KI i : EReal)) k f
      = (((∑ b : Fin 1025, KR (ix2 k b) * ∑ n : Fin 2048, WS (ix2 b n) * X (smp f n))
          + ∑ b : Fin 1025, KI (ix2 k b) * ∑ n : Fin 2048, WC (ix2 b n) * X (smp f n) : ℝ) : EReal) := by
  simp only [refIm, dft_coe, EReal.coe_add, coe_finset_sum, EReal.coe_mul]

/-! ## The two forms agree on real arrays -/

/-- The real parts agree. -/
theorem acc_coefRe_eq_refRe (X : SX.Idx → ℝ) (WC WS : SF.Idx → ℝ) (KR KI : SK.Idx → ℝ) (k : Fin 84) (f : Fin 16381) :
    acc (fun i => (X i : EReal))
        (coefRe (fun i => (WC i : EReal)) (fun i => (WS i : EReal)) (fun i => (KR i : EReal)) (fun i => (KI i : EReal)) k) f
      = refRe (fun i => (X i : EReal)) (fun i => (WC i : EReal)) (fun i => (WS i : EReal)) (fun i => (KR i : EReal))
          (fun i => (KI i : EReal)) k f := by
  have hC : coefRe (fun i => (WC i : EReal)) (fun i => (WS i : EReal)) (fun i => (KR i : EReal)) (fun i => (KI i : EReal)) k
      = fun n => (((∑ b : Fin 1025, KR (ix2 k b) * WC (ix2 b n)) - ∑ b : Fin 1025, KI (ix2 k b) * WS (ix2 b n) : ℝ) : EReal) :=
    funext fun n => coefRe_coe WC WS KR KI k n
  rw [hC, acc_coe, refRe_coe]
  exact congrArg Real.toEReal
    (real_fold_sub (fun b => KR (ix2 k b)) (fun b => KI (ix2 k b)) (fun b n => WC (ix2 b n)) (fun b n => WS (ix2 b n))
      (fun n => X (smp f n)))

/-- The imaginary parts agree. -/
theorem acc_coefIm_eq_refIm (X : SX.Idx → ℝ) (WC WS : SF.Idx → ℝ) (KR KI : SK.Idx → ℝ) (k : Fin 84) (f : Fin 16381) :
    acc (fun i => (X i : EReal))
        (coefIm (fun i => (WC i : EReal)) (fun i => (WS i : EReal)) (fun i => (KR i : EReal)) (fun i => (KI i : EReal)) k) f
      = refIm (fun i => (X i : EReal)) (fun i => (WC i : EReal)) (fun i => (WS i : EReal)) (fun i => (KR i : EReal))
          (fun i => (KI i : EReal)) k f := by
  have hC : coefIm (fun i => (WC i : EReal)) (fun i => (WS i : EReal)) (fun i => (KR i : EReal)) (fun i => (KI i : EReal)) k
      = fun n => (((∑ b : Fin 1025, KR (ix2 k b) * WS (ix2 b n)) + ∑ b : Fin 1025, KI (ix2 k b) * WC (ix2 b n) : ℝ) : EReal) :=
    funext fun n => coefIm_coe WC WS KR KI k n
  rw [hC, acc_coe, refIm_coe]
  exact congrArg Real.toEReal
    (real_fold_add (fun b => KR (ix2 k b)) (fun b => KI (ix2 k b)) (fun b n => WC (ix2 b n)) (fun b n => WS (ix2 b n))
      (fun n => X (smp f n)))

/-- The folded form and the two-stage form of the magnitude agree when every entry of every array is real. -/
theorem kerOut_eq_refOut (x : SX.Idx → EReal) (wc ws : SF.Idx → EReal) (kr ki : SK.Idx → EReal)
    (hx : ∀ i, ∃ r : ℝ, x i = (r : EReal)) (hwc : ∀ i, ∃ r : ℝ, wc i = (r : EReal)) (hws : ∀ i, ∃ r : ℝ, ws i = (r : EReal))
    (hkr : ∀ i, ∃ r : ℝ, kr i = (r : EReal)) (hki : ∀ i, ∃ r : ℝ, ki i = (r : EReal)) :
    kerOut x wc ws kr ki = refOut x wc ws kr ki := by
  choose X hX using hx
  choose WC hWC using hwc
  choose WS hWS using hws
  choose KR hKR using hkr
  choose KI hKI using hki
  have ex : x = fun i => (X i : EReal) := funext hX
  have ewc : wc = fun i => (WC i : EReal) := funext hWC
  have ews : ws = fun i => (WS i : EReal) := funext hWS
  have ekr : kr = fun i => (KR i : EReal) := funext hKR
  have eki : ki = fun i => (KI i : EReal) := funext hKI
  rw [ex, ewc, ews, ekr, eki]
  funext i
  simp only [kerOut, refOut, acc_coefRe_eq_refRe, acc_coefIm_eq_refIm]

end Cert.Cqt

end
-- ==== Proof.Finite.lean ====
/-
  Every entry of the five argument arrays is a real number.

  The precondition is the conjunction, over the five arrays, of "every entry x satisfies |x| < +∞", each conjunct a
  reduction by `and` over all axes of the elementwise comparison. The conjunction being 1 makes each reduction 1, a
  reduction by `and` that is 1 met only 1s, and on the extended reals |x| < ⊤ excludes exactly ⊥ and ⊤ (|⊥| = |⊤| = ⊤),
  so x is the image of a real number.
-/
import proofs.«133678_j64733747085470_2_alg».proof.Pre_finite_inputs
import Idealize.ShloMosaic.Lib.ReduceAll
import Idealize.ShloMosaic.PureOps.Ideal
import Idealize.ShloMosaic.PureOps.Ideal.Laws

noncomputable section

namespace Cert.Cqt.Finite

open Idealize.ShloMosaic Cert.Pre_finite_inputs

/-- The rank-0 shape has one index. -/
instance : Subsingleton S_.Idx := ⟨fun a b => funext fun d => d.elim0⟩

/-- The f32 word 0x7F800000 denotes +∞. -/
theorem inf_eq_top : Ideal.ofBits .f32 0x7F800000#32 = ⊤ := by simp [Ideal.ofBits, Ideal.ieee]

/-- An extended real whose absolute value compares strictly below +∞ is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | top => simp [Ideal.cmp] at h
  | coe r => exact ⟨r, rfl⟩

/-- One array: if the reduction by `and` over all axes of `|x| < +∞` is 1, every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant S_ .f32 0x7F800000#32)))
          (constantI S_ 1 1#1) hr hu j = 1#1) :
    ∀ i, ∃ r : ℝ, x i = (r : EReal) := by
  intro i
  have hi := Host.reduce_andi_all _ _ hr hu j e i
  exact real_of_abs_lt_inf (x i) hi

/-- The precondition makes every entry of the five argument arrays a real number. -/
theorem args_real [hPre_finite_inputs : Cert.Pre_finite_inputs.Facts] (a0 : (⟨S8388608, .f32⟩ : BufTy).Contents (Elt Ideal)) (a1 a2 : (⟨S1025x2048, .f32⟩ : BufTy).Contents (Elt Ideal)) (a3 a4 : (⟨S84x1025, .f32⟩ : BufTy).Contents (Elt Ideal))
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) := by
  have j : S_.Idx := fun d => d.elim0
  have hj := congrFun h j
  dsimp only [fn, fn_part1, andi] at hj
  obtain ⟨h0123, h4⟩ := IntOp.andi_eq_one.1 hj
  obtain ⟨h012, h3⟩ := IntOp.andi_eq_one.1 h0123
  obtain ⟨h01, h2⟩ := IntOp.andi_eq_one.1 h012
  obtain ⟨h0, h1⟩ := IntOp.andi_eq_one.1 h01
  exact ⟨all_real a0 _ _ _ j h0, all_real a1 _ _ _ j h1, all_real a2 _ _ _ j h2, all_real a3 _ _ _ j h3,
    all_real a4 _ _ _ j h4⟩

end Cert.Cqt.Finite

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.RefSide.lean ====
/-
  The reference program read at an index: it is the two-stage form of the constant-Q magnitude.

  The program frames the signal by a gather: start index `(f, n)` is the 32-bit word `f · 512 + n`, wrapped (an offset
  of the signal's length is added to a negative word) and clamped into the signal. For `f < 16381` and `n < 2048` the
  word's signed value is the natural number `512 f + n < 8388608`, so neither step changes it and the gathered element is
  sample `n` of frame `f`. The two Fourier products are then the sums `dft`, the four kernel products the sums in
  `refRe` and `refIm`, and the last three operations the magnitude `refOut`.
-/
import proofs.«133678_j64733747085470_2_alg».proof.Proof.Spec
import proofs.«133678_j64733747085470_2_alg».proof.Proof.LibRowIndex
import proofs.«133678_j64733747085470_2_alg».proof.Proof.Gen.ReferenceIdeal.Read

open scoped BigOperators

noncomputable section

namespace Cert.Cqt.RefSide

open Cert.ReferenceIdeal Cert.ReferenceIdeal.Read Idealize.ShloMosaic Idealize.ShloMosaic.ValueIdx

/-! ## The start index word -/

/-- The start index of sample `b` of frame `a`, as the program computes it in 32-bit words. -/
def word (a b : Nat) : BitVec 32 := BitVec.ofNat 32 a * 512#32 + BitVec.ofNat 32 b

/-- Inside the program's extents the word does not wrap: its unsigned value is `512 a + b`. -/
theorem word_toNat (a b : Nat) (ha : a < 16381) (hb : b < 2048) : (word a b).toNat = 512 * a + b := by
  unfold word
  rw [BitVec.toNat_add, BitVec.toNat_mul, BitVec.toNat_ofNat, BitVec.toNat_ofNat, BitVec.toNat_ofNat]
  have e : (2 : Nat) ^ 32 = 4294967296 := by norm_num
  rw [e, Nat.mod_eq_of_lt (show a < 4294967296 by omega), Nat.mod_eq_of_lt (show b < 4294967296 by omega),
    Nat.mod_eq_of_lt (show 512 < 4294967296 by omega), Nat.mod_eq_of_lt (show a * 512 < 4294967296 by omega),
    Nat.mod_eq_of_lt (show a * 512 + b < 4294967296 by omega)]
  omega

/-- Its signed value is the same natural number: `512 a + b < 2 ^ 31`. -/
theorem word_toInt (a b : Nat) (ha : a < 16381) (hb : b < 2048) : (word a b).toInt = ((512 * a + b : Nat) : Int) := by
  have h := word_toNat a b ha hb
  rw [BitVec.toInt_eq_toNat_of_lt (by rw [h]; omega), h]

/-- The sum of the frame offset and the sample position, read at `j = (f, n)`: the word `f · 512 + n`. -/
theorem v8_at (j : S16381x2048.Idx) : val_main_v8 (F := Ideal) j = word (j 0).val (j 1).val := by
  rw [val_main_v8_apply, val_main_v6_apply, val_main_v7_apply, val_main_v3_apply, val_main_v1_apply, val_main_v2_apply,
    val_main_v0_apply, val_main_c_apply, val_main_v5_apply, val_main_v4_apply]
  rfl

/-- The wrapped start index, clamped into the signal, is `512 f + n`. -/
theorem v13_clamp (j : S16381x2048.Idx) :
    min (val_main_v13 (F := Ideal) j).toInt.toNat (8388608 - 1) = 512 * (j 0).val + (j 1).val := by
  rw [val_main_v13_apply, val_main_v10_apply, val_main_v12_apply, val_main_v9_apply, val_main_c_0_apply,
    val_main_v11_apply, val_main_c_1_apply, v8_at]
  have h0 := idx2_lt0 j
  have h1 := idx2_lt1 j
  exact RowIndex.wrap_clamp_of_toInt_eq _ _ _ (by omega) (word_toInt _ _ h0 h1)

/-! ## The gather -/

/-- The gather's dimension numbers are those of `x[idx]` for a flat `x` and a rank-2 array of positions. -/
theorem gather_dims :
    gather_S8388608_S16381x2048x1_S16381x2048_n_0_n_n_0_2_1 =
      takeDims 8388608 16381 2048 Facts₀.gather_S8388608_S16381x2048x1_S16381x2048_n_0_n_n_0_2_1_wf := rfl

/-- THE FRAMES: element `(f, n)` of the gathered array is sample `n` of frame `f`. -/
theorem v15_at (x0 : (⟨S8388608, .f32⟩ : BufTy).Contents (Elt Ideal)) (f : Fin 16381) (n : Fin 2048) :
    val_main_v15 (F := Ideal) x0 (ix2 f n) = x0 (smp f n) := by
  unfold val_main_v15
  rw [gather_dims, gather_take_apply (by omega)]
  refine congrArg x0 (congrArg ix1 (Fin.ext ?_))
  show min (val_main_v14 (F := Ideal) (takeIdx (ix2 f n))).toInt.toNat (8388608 - 1) = 512 * f.val + n.val
  rw [val_main_v14_apply]
  exact v13_clamp _

/-! ## The two Fourier products -/

/-- Bin `b`, frame `f` of the cosine product is `dft` against the cosine table. -/
theorem v16_at (x0 : (⟨S8388608, .f32⟩ : BufTy).Contents (Elt Ideal)) (x1 : (⟨S1025x2048, .f32⟩ : BufTy).Contents (Elt Ideal))
    (b : Fin 1025) (f : Fin 16381) : val_main_v16 (F := Ideal) x0 x1 (ix2 b f) = dft x0 x1 b f := by
  rw [val_main_v16_apply]
  unfold dft
  refine Finset.sum_congr rfl fun n _ => ?_
  have el : lidx_main_v16 (ix2 b f) n = ix2 b n := funext fun a => Fin.ext (by
    match a with
    | ⟨0, _⟩ => rfl
    | ⟨1, _⟩ => rfl)
  have er : ridx_main_v16 (ix2 b f) n = ix2 f n := funext fun a => Fin.ext (by
    match a with
    | ⟨0, _⟩ => rfl
    | ⟨1, _⟩ => rfl)
  rw [el, er, v15_at]

/-- Bin `b`, frame `f` of the sine product is `dft` against the sine table. -/
theorem v17_at (x0 : (⟨S8388608, .f32⟩ : BufTy).Contents (Elt Ideal)) (x2 : (⟨S1025x2048, .f32⟩ : BufTy).Contents (Elt Ideal))
    (b : Fin 1025) (f : Fin 16381) : val_main_v17 (F := Ideal) x0 x2 (ix2 b f) = dft x0 x2 b f := by
  rw [val_main_v17_apply]
  unfold dft
  refine Finset.sum_congr rfl fun n _ => ?_
  have el : lidx_main_v17 (ix2 b f) n = ix2 b n := funext fun a => Fin.ext (by
    match a with
    | ⟨0, _⟩ => rfl
    | ⟨1, _⟩ => rfl)
  have er : ridx_main_v17 (ix2 b f) n = ix2 f n := funext fun a => Fin.ext (by
    match a with
    | ⟨0, _⟩ => rfl
    | ⟨1, _⟩ => rfl)
  rw [el, er, v15_at]

/-! ## The four kernel products -/

/-- The real kernel against the cosine bins. -/
theorem v18_at (x0 : (⟨S8388608, .f32⟩ : BufTy).Contents (Elt Ideal)) (x1 : (⟨S1025x2048, .f32⟩ : BufTy).Contents (Elt Ideal))
    (x3 : (⟨S84x1025, .f32⟩ : BufTy).Contents (Elt Ideal)) (k : Fin 84) (f : Fin 16381) :
    val_main_v18 (F := Ideal) x0 x1 x3 (ix2 k f) = ∑ b : Fin 1025, x3 (ix2 k b) * dft x0 x1 b f := by
  rw [val_main_v18_apply]
  refine Finset.sum_congr rfl fun b _ => ?_
  have el : lidx_main_v18 (ix2 k f) b = ix2 k b := funext fun a => Fin.ext (by
    match a with
    | ⟨0, _⟩ => rfl
    | ⟨1, _⟩ => rfl)
  have er : ridx_main_v18 (ix2 k f) b = ix2 b f := funext fun a => Fin.ext (by
    match a with
    | ⟨0, _⟩ => rfl
    | ⟨1, _⟩ => rfl)
  rw [el, er, v16_at]

/-- The imaginary kernel against the sine bins. -/
theorem v19_at (x0 : (⟨S8388608, .f32⟩ : BufTy).Contents (Elt Ideal)) (x2 : (⟨S1025x2048, .f32⟩ : BufTy).Contents (Elt Ideal))
    (x4 : (⟨S84x1025, .f32⟩ : BufTy).Contents (Elt Ideal)) (k : Fin 84) (f : Fin 16381) :
    val_main_v19 (F := Ideal) x0 x2 x4 (ix2 k f) = ∑ b : Fin 1025, x4 (ix2 k b) * dft x0 x2 b f := by
  rw [val_main_v19_apply]
  refine Finset.sum_congr rfl fun b _ => ?_
  have el : lidx_main_v19 (ix2 k f) b = ix2 k b := funext fun a => Fin.ext (by
    match a with
    | ⟨0, _⟩ => rfl
    | ⟨1, _⟩ => rfl)
  have er : ridx_main_v19 (ix2 k f) b = ix2 b f := funext fun a => Fin.ext (by
    match a with
    | ⟨0, _⟩ => rfl
    | ⟨1, _⟩ => rfl)
  rw [el, er, v17_at]

/-- The real kernel against the sine bins. -/
theorem v21_at (x0 : (⟨S8388608, .f32⟩ : BufTy).Contents (Elt Ideal)) (x2 : (⟨S1025x2048, .f32⟩ : BufTy).Contents (Elt Ideal))
    (x3 : (⟨S84x1025, .f32⟩ : BufTy).Contents (Elt Ideal)) (k : Fin 84) (f : Fin 16381) :
    val_main_v21 (F := Ideal) x0 x2 x3 (ix2 k f) = ∑ b : Fin 1025, x3 (ix2 k b) * dft x0 x2 b f := by
  rw [val_main_v21_apply]
  refine Finset.sum_congr rfl fun b _ => ?_
  have el : lidx_main_v21 (ix2 k f) b = ix2 k b := funext fun a => Fin.ext (by
    match a with
    | ⟨0, _⟩ => rfl
    | ⟨1, _⟩ => rfl)
  have er : ridx_main_v21 (ix2 k f) b = ix2 b f := funext fun a => Fin.ext (by
    match a with
    | ⟨0, _⟩ => rfl
    | ⟨1, _⟩ => rfl)
  rw [el, er, v17_at]

/-- The imaginary kernel against the cosine bins. -/
theorem v22_at (x0 : (⟨S8388608, .f32⟩ : BufTy).Contents (Elt Ideal)) (x1 : (⟨S1025x2048, .f32⟩ : BufTy).Contents (Elt Ideal))
    (x4 : (⟨S84x1025, .f32⟩ : BufTy).Contents (Elt Ideal)) (k : Fin 84) (f : Fin 16381) :
    val_main_v22 (F := Ideal) x0 x1 x4 (ix2 k f) = ∑ b : Fin 1025, x4 (ix2 k b) * dft x0 x1 b f := by
  rw [val_main_v22_apply]
  refine Finset.sum_congr rfl fun b _ => ?_
  have el : lidx_main_v22 (ix2 k f) b = ix2 k b := funext fun a => Fin.ext (by
    match a with
    | ⟨0, _⟩ => rfl
    | ⟨1, _⟩ => rfl)
  have er : ridx_main_v22 (ix2 k f) b = ix2 b f := funext fun a => Fin.ext (by
    match a with
    | ⟨0, _⟩ => rfl
    | ⟨1, _⟩ => rfl)
  rw [el, er, v16_at]

/-! ## The real and imaginary parts, and the magnitude -/

/-- The difference of the first two kernel products is the real part. -/
theorem v20_at (x0 : (⟨S8388608, .f32⟩ : BufTy).Contents (Elt Ideal)) (x1 x2 : (⟨S1025x2048, .f32⟩ : BufTy).Contents (Elt Ideal))
    (x3 x4 : (⟨S84x1025, .f32⟩ : BufTy).Contents (Elt Ideal)) (k : Fin 84) (f : Fin 16381) :
    val_main_v20 (F := Ideal) x0 x1 x2 x3 x4 (ix2 k f) = refRe x0 x1 x2 x3 x4 k f := by
  rw [val_main_v20_apply, Ideal.subf_def, v18_at, v19_at]
  rfl

/-- The sum of the last two kernel products is the imaginary part. -/
theorem v23_at (x0 : (⟨S8388608, .f32⟩ : BufTy).Contents (Elt Ideal)) (x1 x2 : (⟨S1025x2048, .f32⟩ : BufTy).Contents (Elt Ideal))
    (x3 x4 : (⟨S84x1025, .f32⟩ : BufTy).Contents (Elt Ideal)) (k : Fin 84) (f : Fin 16381) :
    val_main_v23 (F := Ideal) x0 x1 x2 x3 x4 (ix2 k f) = refIm x0 x1 x2 x3 x4 k f := by
  rw [val_main_v23_apply, Ideal.addf_def, v21_at, v22_at]
  rfl

/-- THE REFERENCE PROGRAM'S RESULT is the two-stage form of the magnitude. -/
theorem ref_eq (x0 : (⟨S8388608, .f32⟩ : BufTy).Contents (Elt Ideal)) (x1 x2 : (⟨S1025x2048, .f32⟩ : BufTy).Contents (Elt Ideal))
    (x3 x4 : (⟨S84x1025, .f32⟩ : BufTy).Contents (Elt Ideal)) :
    Cert.ReferenceIdeal.Read.val_main_v28 (F := Ideal) x0 x1 x2 x3 x4 = Cert.Cqt.refOut x0 x1 x2 x3 x4 := by
  funext i
  have ei : idx_main_v28 i = ix2 (⟨(i 1).val, (i 1).isLt⟩ : Fin 84) (⟨(i 2).val, (i 2).isLt⟩ : Fin 16381) :=
    funext fun a => Fin.ext (by
      match a with
      | ⟨0, _⟩ => rfl
      | ⟨1, _⟩ => rfl)
  rw [val_main_v28_apply, ei, val_main_v27_apply, Ideal.hostUnary_sqrt_def, val_main_v26_apply, Ideal.addf_def,
    val_main_v24_apply, Ideal.mulf_def, val_main_v25_apply, Ideal.mulf_def, v20_at, v23_at]
  rfl

end Cert.Cqt.RefSide

end
-- ==== Proof.LibPad.lean ====
/-
  `stablehlo.pad` read at an index: a result index that lands on operand entry `k` (on every axis its coordinate is
  `lo + k · (interior + 1)`) reads the operand there; an index that misses the operand on some axis reads the padding value.
-/
import Idealize.ShloMosaic.PureOps.ShapeOps

namespace Idealize.ShloMosaic.LibPad

open Idealize.ShloMosaic

variable {s t u : Shape} {α : Type}

/-- The padded array at an index that lands on the operand's entry `k` is the operand at `k`. -/
theorem pad_apply_of_mem (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a]
    refine ⟨Nat.le_add_right _ _, ?_, ?_⟩
    · rw [Nat.add_sub_cancel_left]; exact Nat.mul_mod_left _ _
    · rw [Nat.add_sub_cancel_left, Nat.mul_div_cancel _ (Nat.succ_pos _)]; exact (k a).isLt
  unfold pad
  rw [dif_pos hin]
  exact congrArg x (funext fun a => Fin.ext (by
    show ((j (a.cast h.1)).val - lo a) / (interior a + 1) = (k a).val
    rw [hk a, Nat.add_sub_cancel_left, Nat.mul_div_cancel _ (Nat.succ_pos _)]))

/-- The padded array at an index beyond the operand on some axis (no interior padding there is needed: it is enough that the
    coordinate, less the low padding, divided by the stride, is not below the operand's extent) is the padding value. -/
theorem pad_apply_of_not_mem (lo hi interior : Fin s.rank → Nat) (x : s.Idx → α) (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg]
  intro hin
  exact absurd (hin a).2.2 (Nat.not_lt.mpr ha)

end Idealize.ShloMosaic.LibPad
-- ==== Proof.LibRowsLayout.lean ====
/-
  Row-wise layouts of a matrix read at coordinates, for any extents and element type:
  rows of padding added below a matrix [a, b] → [a', b] (row g of the operand is row g of the result); a pad that adds
  nothing (the identity); a vector of n entries viewed as a matrix of rows of b entries [n] → [a, b] (entry (g, j) is entry
  g · b + j); and the rows r … of a matrix sliced off, all columns kept, [a', b] → [a, b] (row f of the slice is row r + f).
  What a signal cut into hops, padded and read through shifted row windows needs.
-/
import proofs.«133678_j64733747085470_2_alg».proof.Proof.LibPad
import Idealize.ShloMosaic.Lib.Pipeline.Value
import Idealize.ShloMosaic.Lib.ValueIdx

namespace Idealize.ShloMosaic.LibRowsLayout

open Idealize.ShloMosaic Idealize.ShloMosaic.ValueIdx

section Layout
variable {α : Type}

/-- Rows added below a matrix: a row of the operand is the same row of the padded matrix. -/
theorem padRows_apply {a a' b d : ℕ} {u : Shape} (x : (⟨2, ![a, b]⟩ : Shape).Idx → α) (v : u.Idx → α)
    (h : (⟨2, ![a, b]⟩ : Shape).Pads ![0, 0] ![d, 0] ![0, 0] ⟨2, ![a', b]⟩) (hu : 0 < u.numel)
    (g : Fin a) (g' : Fin a') (j : Fin b) (hg : g'.val = g.val) :
    pad ⟨2, ![a', b]⟩ ![0, 0] ![d, 0] ![0, 0] x v h hu (ix2 g' j) = x (ix2 g j) :=
  LibPad.pad_apply_of_mem _ _ _ x v h hu _ (ix2 g j) fun ax => by
    match ax with
    | ⟨0, _⟩ => show g'.val = 0 + g.val * (0 + 1); omega
    | ⟨1, _⟩ => show j.val = 0 + j.val * (0 + 1); omega

/-- A pad that adds nothing is the identity. -/
theorem padNone_apply {n : ℕ} {u : Shape} (x : (⟨1, ![n]⟩ : Shape).Idx → α) (v : u.Idx → α)
    (h : (⟨1, ![n]⟩ : Shape).Pads ![0] ![0] ![0] ⟨1, ![n]⟩) (hu : 0 < u.numel) (k : Fin n) :
    pad ⟨1, ![n]⟩ ![0] ![0] ![0] x v h hu (ix1 k) = x (ix1 k) :=
  LibPad.pad_apply_of_mem _ _ _ x v h hu _ (ix1 k) fun ax => by
    match ax with
    | ⟨0, _⟩ => show k.val = 0 + k.val * (0 + 1); omega

/-- A vector viewed as a matrix of rows of b entries: entry (g, j) is entry g · b + j. -/
theorem reshape_rows_apply {a b n : ℕ} (x : (⟨1, ![n]⟩ : Shape).Idx → α)
    (h : (⟨1, ![n]⟩ : Shape).ShapeCasts ⟨2, ![a, b]⟩) (g : Fin a) (j : Fin b) (k : Fin n) (hk : k.val = g.val * b + j.val) :
    shapeCast ⟨2, ![a, b]⟩ x h (ix2 g j) = x (ix1 k) :=
  shapeCast_apply x h _ _ (by
    rw [Shape.rowMajor_val_one, Shape.rowMajor_val_two]
    show k.val = g.val * b + j.val
    exact hk)

/-- Rows r … of a matrix: row f of the slice is row r + f. -/
theorem sliceRows_apply {a a' b r : ℕ} (x : (⟨2, ![a', b]⟩ : Shape).Idx → α)
    (h : (⟨2, ![a', b]⟩ : Shape).Slices ![r, 0] ⟨2, ![a, b]⟩) (f : Fin a) (j : Fin b) (g : Fin a') (hg : g.val = r + f.val) :
    extractStridedSlice ⟨2, ![a, b]⟩ ![r, 0] x h (ix2 f j) = x (ix2 g j) :=
  extractStridedSlice_apply _ x h _ _ fun ax => by
    match ax with
    | ⟨0, _⟩ => show g.val = r + f.val; exact hg
    | ⟨1, _⟩ => show j.val = 0 + j.val; omega

end Layout

end Idealize.ShloMosaic.LibRowsLayout
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.HostArrays.lean ====
/-
  The two arrays the kernel's host code prepares, read at an index.

  The hop matrix: the signal, 8388608 samples, viewed as 16384 rows of 512 samples (row g, column j is sample 512 g + j)
  and padded below by 8 rows. Row g + r of it, for r = 0 … 3, is hop r of frame g.

  The weight: the real coefficients (kr · wc − ki · ws) and the imaginary ones (kr · ws + ki · wc), each [84, 2048],
  padded to 128 rows, transposed to [2048, 128] and set side by side: entry (n, k) is the real coefficient of bin k at
  position n and entry (n, 128 + k) the imaginary one, for k < 84.

  A change of float format is the identity on the extended reals, and the padding value is never read at the indices
  that matter (rows below 16384 of the hop matrix, columns k and 128 + k with k < 84 of the weight).
-/
import proofs.«133678_j64733747085470_2_alg».proof.Proof.Gen.KernelIdeal
import proofs.«133678_j64733747085470_2_alg».proof.Proof.Spec
import proofs.«133678_j64733747085470_2_alg».proof.Proof.LibPad
import proofs.«133678_j64733747085470_2_alg».proof.Proof.LibRowsLayout
import proofs.«133678_j64733747085470_2_alg».proof.Proof.LibMatmul
import Idealize.ShloMosaic.Lib.Pipeline.Value
import Idealize.ShloMosaic.Lib.ValueLayout
import Idealize.ShloMosaic.PureOps.Ideal
import Idealize.ShloMosaic.PureOps.Ideal.Laws

open scoped BigOperators

noncomputable section

namespace Cert.Cqt.HostArrays

open Cert.KernelIdeal Cert.KernelIdeal.Facts₀ Idealize.ShloMosaic Idealize.ShloMosaic.ValueIdx Idealize.ShloMosaic.LibRowsLayout

/-! ## The hop matrix -/

/-- A change of float format is the identity on the extended reals. -/
theorem truncf_id {s : Shape} (v : FVec Ideal s .f32) (h : FTy.bf16.bits < FTy.f32.bits) :
    (truncf (F := Ideal) .bf16 v h : FVec Ideal s .bf16) = v := rfl

/-- The padding value of the host's pads: the integer zero, converted. -/
abbrev padv : FVec Ideal S_ .f32 := sitofp (F := Ideal) .f32 (constantI S_ 32 0#32)

/-- The signal as 16384 rows of 512 samples, 8 rows of padding below. -/
def hops (x : FVec Ideal S8388608 .f32) : FVec Ideal S16392x512 .bf16 :=
  truncf (F := Ideal) .bf16 (pad S16392x512 ![0, 0] ![8, 0] ![0, 0]
    (shapeCast S16384x512 (pad S8388608 ![0] ![0] ![0] x padv pads_S8388608_S8388608_000 h_S_) shapeCasts_S8388608_S16384x512)
    padv pads_S16384x512_S16392x512_080_000 h_S_) bitsLt_bf16_f32

/-- Row g < 16384, column j of the hop matrix is sample 512 g + j. -/
theorem hops_apply (x : FVec Ideal S8388608 .f32) (g : Fin 16392) (j : Fin 512) (hg : g.val < 16384) :
    hops x (ix2 g j) = x (ix1 ⟨512 * g.val + j.val, by have := j.isLt; omega⟩) := by
  unfold hops
  rw [truncf_id, padRows_apply _ _ pads_S16384x512_S16392x512_080_000 h_S_ ⟨g.val, hg⟩ g j rfl,
    reshape_rows_apply _ shapeCasts_S8388608_S16384x512 ⟨g.val, hg⟩ j ⟨512 * g.val + j.val, by have := j.isLt; omega⟩
      (by show 512 * g.val + j.val = g.val * 512 + j.val; omega),
    padNone_apply _ _ pads_S8388608_S8388608_000 h_S_]

/-- Hop r of frame f: row r + f of the hop matrix, sliced off as rows r … r + 16383. -/
theorem hop_apply (x : FVec Ideal S8388608 .f32) (r : ℕ)
    (h : S16392x512.Slices ![r, 0] S16384x512) (f : Fin 16384) (j : Fin 512) (hr : r + f.val < 16384) :
    extractStridedSlice S16384x512 ![r, 0] (hops x) h (ix2 f j)
      = x (ix1 ⟨512 * (r + f.val) + j.val, by have := j.isLt; omega⟩) := by
  rw [sliceRows_apply (hops x) h f j ⟨r + f.val, by omega⟩ rfl, hops_apply x _ j hr]

/-! ## The weight -/

/-- The real coefficients, [84, 2048]. -/
def coefA (wc ws : FVec Ideal S1025x2048 .f32) (kr ki : FVec Ideal S84x1025 .f32) : FVec Ideal S84x2048 .f32 :=
  subf (Host.dotGeneral dot_S84x1025_S1025x2048_S84x2048_1_0_0_1_n_n (some .fp32) kr wc)
    (Host.dotGeneral dot_S84x1025_S1025x2048_S84x2048_1_0_0_1_n_n (some .fp32) ki ws)

/-- The imaginary coefficients, [84, 2048]. -/
def coefB (wc ws : FVec Ideal S1025x2048 .f32) (kr ki : FVec Ideal S84x1025 .f32) : FVec Ideal S84x2048 .f32 :=
  addf (Host.dotGeneral dot_S84x1025_S1025x2048_S84x2048_1_0_0_1_n_n (some .fp32) kr ws)
    (Host.dotGeneral dot_S84x1025_S1025x2048_S84x2048_1_0_0_1_n_n (some .fp32) ki wc)

/-- A coefficient matrix padded to 128 rows and transposed. -/
def padT (C : FVec Ideal S84x2048 .f32) : FVec Ideal S2048x128 .f32 :=
  transpose S2048x128 [1, 0] (pad S128x2048 ![0, 0] ![44, 0] ![0, 0] C padv pads_S84x2048_S128x2048_0440_000 h_S_)
    transposes_S128x2048_S2048x128_1_0

/-- The two padded, transposed coefficient matrices side by side. -/
def sideBySide (wc ws : FVec Ideal S1025x2048 .f32) (kr ki : FVec Ideal S84x1025 .f32) : FVec Ideal S2048x256 .f32 :=
  concatenate S2048x256 1 [⟨S2048x128, padT (coefA wc ws kr ki)⟩, ⟨S2048x128, padT (coefB wc ws kr ki)⟩]
    concatenates_S2048x128_S2048x128_S2048x256_d1

/-- The weight. -/
def weight (wc ws : FVec Ideal S1025x2048 .f32) (kr ki : FVec Ideal S84x1025 .f32) : FVec Ideal S2048x256 .bf16 :=
  truncf (F := Ideal) .bf16 (sideBySide wc ws kr ki) bitsLt_bf16_f32

/-- A host product of a kernel matrix with a table, at (k, n). -/
theorem dot_apply (kk : FVec Ideal S84x1025 .f32) (w : FVec Ideal S1025x2048 .f32) (k : Fin 84) (n : Fin 2048) :
    Host.dotGeneral dot_S84x1025_S1025x2048_S84x2048_1_0_0_1_n_n (some .fp32) kk w (ix2 k n)
      = ∑ b : Fin 1025, kk (ix2 k b) * w (ix2 b n) := by
  unfold Host.dotGeneral
  exact dotGeneral_ix2 dot_S84x1025_S1025x2048_S84x2048_1_0_0_1_n_n rfl rfl rfl rfl rfl rfl _ _ kk w k n

theorem coefA_apply (wc ws : FVec Ideal S1025x2048 .f32) (kr ki : FVec Ideal S84x1025 .f32) (k : Fin 84) (n : Fin 2048) :
    coefA wc ws kr ki (ix2 k n) = Cert.Cqt.coefRe wc ws kr ki k n := by
  unfold coefA Cert.Cqt.coefRe
  rw [← dot_apply, ← dot_apply]
  rfl

theorem coefB_apply (wc ws : FVec Ideal S1025x2048 .f32) (kr ki : FVec Ideal S84x1025 .f32) (k : Fin 84) (n : Fin 2048) :
    coefB wc ws kr ki (ix2 k n) = Cert.Cqt.coefIm wc ws kr ki k n := by
  unfold coefB Cert.Cqt.coefIm
  rw [← dot_apply, ← dot_apply]
  rfl

/-- Row n, column k < 84 of a padded, transposed coefficient matrix is its entry (k, n). -/
theorem padT_apply (C : FVec Ideal S84x2048 .f32) (n : Fin 2048) (k : Fin 84) :
    padT C (ix2 n ⟨k.val, by have := k.isLt; omega⟩) = C (ix2 k n) := by
  unfold padT
  rw [transpose_ix2_apply, padRows_apply _ _ pads_S84x2048_S128x2048_0440_000 h_S_ k _ n rfl]

/-- Column k < 84 of the weight holds the real coefficients of bin k. -/
theorem weight_re (wc ws : FVec Ideal S1025x2048 .f32) (kr ki : FVec Ideal S84x1025 .f32) (n : Fin 2048) (k : Fin 84) :
    weight wc ws kr ki (ix2 n ⟨k.val, by have := k.isLt; omega⟩) = Cert.Cqt.coefRe wc ws kr ki k n := by
  unfold weight
  rw [truncf_id]
  unfold sideBySide
  refine (concatenate_pair_apply_left (t := S2048x256) (s₁ := S2048x128) (s₂ := S2048x128) (1 : Fin 2)
    (padT (coefA wc ws kr ki)) (padT (coefB wc ws kr ki)) concatenates_S2048x128_S2048x128_S2048x256_d1
    (ix2 n ⟨k.val, by have := k.isLt; omega⟩) rfl (ix2 n ⟨k.val, by have := k.isLt; omega⟩)
    (fun b => by match b with | ⟨0, _⟩ => rfl | ⟨1, _⟩ => rfl)).trans ?_
  rw [padT_apply, coefA_apply]

/-- Column 128 + k, k < 84, of the weight holds the imaginary coefficients of bin k. -/
theorem weight_im (wc ws : FVec Ideal S1025x2048 .f32) (kr ki : FVec Ideal S84x1025 .f32) (n : Fin 2048) (k : Fin 84) :
    weight wc ws kr ki (ix2 n ⟨128 + k.val, by have := k.isLt; omega⟩) = Cert.Cqt.coefIm wc ws kr ki k n := by
  unfold weight
  rw [truncf_id]
  unfold sideBySide
  refine (concatenate_pair_apply_right (t := S2048x256) (s₁ := S2048x128) (s₂ := S2048x128) (1 : Fin 2)
    (padT (coefA wc ws kr ki)) (padT (coefB wc ws kr ki)) concatenates_S2048x128_S2048x128_S2048x256_d1
    (ix2 n ⟨128 + k.val, by have := k.isLt; omega⟩) rfl rfl (ix2 n ⟨k.val, by have := k.isLt; omega⟩)
    (fun b hb => by match b with | ⟨0, _⟩ => rfl | ⟨1, _⟩ => exact absurd rfl hb)
    (by show k.val + 128 = 128 + k.val; omega)).trans ?_
  rw [padT_apply, coefB_apply]

end Cert.Cqt.HostArrays

end
-- ==== Proof.KerArrays.lean ====
/-
  What the kernel's windows find in their arrays when the region is entered.

  The host code before the region builds, from the argument arrays alone, the hop matrix (the four operand windows read
  its rows r … r + 16383, r = 0 … 3) and the weight (the fifth window). Each is the composed term of the host operations
  that write it; the terms are named in HostArrays.lean, where they are read at an index.
-/
import proofs.«133678_j64733747085470_2_alg».proof.Proof.Gen.KernelIdeal.Frame
import proofs.«133678_j64733747085470_2_alg».proof.Proof.HostArrays
import Idealize.ShloMosaic.Lib.StableHlo.Run

set_option maxRecDepth 16384

noncomputable section

namespace Cert.Cqt.KerArrays

open Cert.KernelIdeal Cert.KernelIdeal.Gen Cert.Cqt.HostArrays
open Idealize.ShloMosaic Idealize.ShloMosaic.TcCoe Idealize.ShloMosaic.Tactic
open Idealize.SL Idealize.SL.Sem Idealize.ShloMosaic.StableHlo

variable (m : (ℓ : Loc nD τ sig) → Buf (Elt Ideal) ℓ)

set_option maxHeartbeats 2000000 in
/-- Window 0's array: hop 0 of every frame, rows 0 … 0 + 16383 of the hop matrix. -/
theorem V_v16 (c : Dev nD) : (V m c main_v16 : (⟨S16384x512, .bf16⟩ : BufTy).Contents (Elt Ideal))
    = extractStridedSlice S16384x512 ![0, 0] (hops (m ((c : Thread nD τ).loc main_arg0))) slices_S16392x512_S16384x512_0_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 2000000 in
/-- Window 1's array: hop 1 of every frame, rows 1 … 1 + 16383 of the hop matrix. -/
theorem V_v17 (c : Dev nD) : (V m c main_v17 : (⟨S16384x512, .bf16⟩ : BufTy).Contents (Elt Ideal))
    = extractStridedSlice S16384x512 ![1, 0] (hops (m ((c : Thread nD τ).loc main_arg0))) slices_S16392x512_S16384x512_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 2000000 in
/-- Window 2's array: hop 2 of every frame, rows 2 … 2 + 16383 of the hop matrix. -/
theorem V_v18 (c : Dev nD) : (V m c main_v18 : (⟨S16384x512, .bf16⟩ : BufTy).Contents (Elt Ideal))
    = extractStridedSlice S16384x512 ![2, 0] (hops (m ((c : Thread nD τ).loc main_arg0))) slices_S16392x512_S16384x512_2_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 2000000 in
/-- Window 3's array: hop 3 of every frame, rows 3 … 3 + 16383 of the hop matrix. -/
theorem V_v19 (c : Dev nD) : (V m c main_v19 : (⟨S16384x512, .bf16⟩ : BufTy).Contents (Elt Ideal))
    = extractStridedSlice S16384x512 ![3, 0] (hops (m ((c : Thread nD τ).loc main_arg0))) slices_S16392x512_S16384x512_3_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 2000000 in
/-- The fifth window's array: the weight. -/
theorem V_v11 (c : Dev nD) : (V m c main_v11 : (⟨S2048x256, .bf16⟩ : BufTy).Contents (Elt Ideal))
    = weight (m ((c : Thread nD τ).loc main_arg1)) (m ((c : Thread nD τ).loc main_arg2))
        (m ((c : Thread nD τ).loc main_arg3)) (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

end Cert.Cqt.KerArrays

end
-- ==== Proof.Payload.lean ====
/-
  The arithmetic of the kernel's body, read at one entry of its result.

  The body forms four matrix products, one per hop: the hop's block of frames [2048, 512] times the hop's block of
  coefficients [512, 256], each into a zero accumulator. It adds the four products in order to a zero array, reads the
  sum's columns 0–127 (the real parts) and 128–255 (the imaginary parts), squares both, adds the squares and takes the
  square root. Read at frame p and column q this is the tile's magnitude of the specification: every step is the same
  operation at the index, a matrix product at (p, c) is the inner product of row p with column c, and a slice at column
  offset o reads column o + q.
-/
import Idealize.ShloMosaic.Lib.Pipeline.Value
import proofs.«133678_j64733747085470_2_alg».proof.Proof.Spec
import proofs.«133678_j64733747085470_2_alg».proof.Proof.LibMatmul
import proofs.«133678_j64733747085470_2_alg».proof.Proof.Gen.KernelIdeal.Skeleton

open scoped BigOperators

noncomputable section

namespace Cert.Cqt.Payload

open Cert.KernelIdeal Cert.KernelIdeal.Gen Idealize.ShloMosaic Idealize.ShloMosaic.ValueIdx

/-- One hop's matrix product into the zero accumulator, as an array: frames by columns. -/
abbrev hopV (w : Vec Ideal S512x256 .bf16) (x : Vec Ideal S2048x512 .bf16) : FVec Ideal S2048x256 .f32 :=
  matmul (F := Ideal) (φ₁ := .bf16) (φ₂ := .bf16) dot_S2048x512_S512x256_S2048x256_1_0_0_1_n_n none
    (shapeCast S2048x512 x Facts₀.shapeCasts_S2048x512_S2048x512)
    (shapeCast S512x256 w Facts₀.shapeCasts_S512x256_S512x256)
    (constant S2048x256 .f32 0x00000000#32)

/-- One hop's product at frame p and column c: the inner product of the frame's samples of the hop with the column's
    coefficients of the hop. -/
theorem hop_apply (w : Vec Ideal S512x256 .bf16) (x : Vec Ideal S2048x512 .bf16) (p : Fin 2048) (c : Fin 256) :
    hopV w x (ix2 p c) = ∑ j : Fin 512, x (ix2 p j) * w (ix2 j c) := by
  unfold hopV
  rw [shapeCast_self, shapeCast_self]
  exact matmul_zero_ix2 dot_S2048x512_S512x256_S2048x256_1_0_0_1_n_n rfl rfl rfl rfl rfl rfl none x w p c

/-- The four hops' products added in order to the zero array. -/
abbrev accV (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) : FVec Ideal S2048x256 .f32 :=
  addf (addf (addf (addf (broadcast S2048x256 (Scalar.ofBits (F := Ideal) .f32 0x00000000#32)) (hopV w0 x0)) (hopV w1 x1))
    (hopV w2 x2)) (hopV w3 x3)

/-- The sum at frame p and column c is the specification's accumulator there. -/
theorem acc_apply (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) (p : Fin 2048) (c : Fin 256) :
    accV w0 x0 w1 x1 w2 x2 w3 x3 (ix2 p c) = blockAcc w0 w1 w2 w3 x0 x1 x2 x3 p c := by
  show (((Ideal.ofBits .f32 0x00000000#32 + hopV w0 x0 (ix2 p c)) + hopV w1 x1 (ix2 p c)) + hopV w2 x2 (ix2 p c))
      + hopV w3 x3 (ix2 p c) = _
  rw [Ideal.ofBits_zero_f32, hop_apply, hop_apply, hop_apply, hop_apply]
  rfl

/-- The body as one term over the sum: the two column slices, their squares, the squares' sum and its square root. -/
theorem pay_eq (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) :
    k0_pay1 (F := Ideal) w0 x0 w1 x1 w2 x2 w3 x3
      = sqrt (addf
          (mulf (extractStridedSlice S2048x128 ![0, 0] (accV w0 x0 w1 x1 w2 x2 w3 x3) Facts₀.slices_S2048x256_o0_0_S2048x128)
            (extractStridedSlice S2048x128 ![0, 0] (accV w0 x0 w1 x1 w2 x2 w3 x3) Facts₀.slices_S2048x256_o0_0_S2048x128))
          (mulf (extractStridedSlice S2048x128 ![0, 128] (accV w0 x0 w1 x1 w2 x2 w3 x3) Facts₀.slices_S2048x256_o0_128_S2048x128)
            (extractStridedSlice S2048x128 ![0, 128] (accV w0 x0 w1 x1 w2 x2 w3 x3) Facts₀.slices_S2048x256_o0_128_S2048x128))) :=
  rfl

/-- The slice at column offset 0, at (p, q), is the sum at column q. -/
theorem slice_re (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) (p : Fin 2048) (q : Fin 128) :
    extractStridedSlice S2048x128 ![0, 0] (accV w0 x0 w1 x1 w2 x2 w3 x3) Facts₀.slices_S2048x256_o0_0_S2048x128 (ix2 p q)
      = blockAcc w0 w1 w2 w3 x0 x1 x2 x3 p ⟨q.val, by have := q.isLt; omega⟩ := by
  rw [← acc_apply]
  refine extractStridedSlice_apply _ _ _ _ _ fun a => ?_
  match a with
  | ⟨0, _⟩ => exact (Nat.zero_add _).symm
  | ⟨1, _⟩ => exact (Nat.zero_add _).symm

/-- The slice at column offset 128, at (p, q), is the sum at column 128 + q. -/
theorem slice_im (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) (p : Fin 2048) (q : Fin 128) :
    extractStridedSlice S2048x128 ![0, 128] (accV w0 x0 w1 x1 w2 x2 w3 x3) Facts₀.slices_S2048x256_o0_128_S2048x128 (ix2 p q)
      = blockAcc w0 w1 w2 w3 x0 x1 x2 x3 p ⟨128 + q.val, by have := q.isLt; omega⟩ := by
  rw [← acc_apply]
  refine extractStridedSlice_apply _ _ _ _ _ fun a => ?_
  match a with
  | ⟨0, _⟩ => exact (Nat.zero_add _).symm
  | ⟨1, _⟩ => rfl

/-- The kernel body's result at frame p and column q is the tile's magnitude there. -/
theorem pay_apply (w0 : Vec Ideal S512x256 .bf16) (x0 : Vec Ideal S2048x512 .bf16) (w1 : Vec Ideal S512x256 .bf16) (x1 : Vec Ideal S2048x512 .bf16) (w2 : Vec Ideal S512x256 .bf16) (x2 : Vec Ideal S2048x512 .bf16) (w3 : Vec Ideal S512x256 .bf16) (x3 : Vec Ideal S2048x512 .bf16) (p : Fin 2048) (q : Fin 128) :
    Cert.KernelIdeal.Gen.k0_pay1 (F := Ideal) w0 x0 w1 x1 w2 x2 w3 x3 (ix2 p q) = Cert.Cqt.blockOut w0 w1 w2 w3 x0 x1 x2 x3 p q := by
  rw [pay_eq]
  show Ideal.sqrt
      (extractStridedSlice S2048x128 ![0, 0] (accV w0 x0 w1 x1 w2 x2 w3 x3) Facts₀.slices_S2048x256_o0_0_S2048x128 (ix2 p q)
          * extractStridedSlice S2048x128 ![0, 0] (accV w0 x0 w1 x1 w2 x2 w3 x3) Facts₀.slices_S2048x256_o0_0_S2048x128 (ix2 p q)
        + extractStridedSlice S2048x128 ![0, 128] (accV w0 x0 w1 x1 w2 x2 w3 x3) Facts₀.slices_S2048x256_o0_128_S2048x128 (ix2 p q)
          * extractStridedSlice S2048x128 ![0, 128] (accV w0 x0 w1 x1 w2 x2 w3 x3) Facts₀.slices_S2048x256_o0_128_S2048x128 (ix2 p q))
      = _
  rw [slice_re, slice_im]
  rfl

end Cert.Cqt.Payload

end
-- ==== Proof.KerBlocks.lean ====
/-
  From the tiles to the whole result array.

  Grid point t computes tile t: frames 2048 t … 2048 t + 2047. Its four operand blocks are rows 2048 t … of the four hop
  arrays, its weight block is the whole weight (read as four row blocks of 512), and it writes rows 2048 t … of the
  result. So what point t writes back is block t of ONE array, `tilesOut`: entry (g, q) is the tile magnitude formed from
  row g of the four hop arrays and the weight's columns q and 128 + q. The eight blocks tile the result's 16384 rows, so the
  result array after the run is `tilesOut`.
-/
import proofs.«133678_j64733747085470_2_alg».proof.Proof.Gen.KernelIdeal.Frame
import proofs.«133678_j64733747085470_2_alg».proof.Proof.Spec
import proofs.«133678_j64733747085470_2_alg».proof.Proof.Payload
import Idealize.ShloMosaic.Lib.Pipeline.Value
import Idealize.ShloMosaic.Lib.ValueIdx

set_option maxRecDepth 16384

open scoped BigOperators

noncomputable section

namespace Cert.Cqt.KerBlocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The result as one array -/

/-- Row block r of the weight: rows 512 r … 512 r + 511. -/
abbrev wblk (W : FVec Ideal S2048x256 .bf16) (r : Fin 4) : Cert.Cqt.SWB.Idx → EReal :=
  fun y => W (ix2 (Cert.Cqt.pos r ⟨(y 0).val, idx2_lt0 y⟩) ⟨(y 1).val, idx2_lt1 y⟩)

/-- Row g of a hop array, as the row of every frame of a block. -/
abbrev xrow (X : FVec Ideal S16384x512 .bf16) (g : Fin 16384) : Cert.Cqt.SXB.Idx → EReal :=
  fun y => X (ix2 g ⟨(y 1).val, idx2_lt1 y⟩)

/-- The tiles' magnitudes as one array [16384, 128]. -/
def tilesOut (X0 X1 X2 X3 : FVec Ideal S16384x512 .bf16) (W : FVec Ideal S2048x256 .bf16) : FVec Ideal S16384x128 .f32 := fun i =>
  Cert.Cqt.blockOut (wblk W 0) (wblk W 1) (wblk W 2) (wblk W 3)
    (xrow X0 ⟨(i 0).val, idx2_lt0 i⟩) (xrow X1 ⟨(i 0).val, idx2_lt0 i⟩) (xrow X2 ⟨(i 0).val, idx2_lt0 i⟩) (xrow X3 ⟨(i 0).val, idx2_lt0 i⟩)
    ⟨0, by decide⟩ ⟨(i 1).val, idx2_lt1 i⟩

/-- A tile's magnitude depends on its blocks only through the entries it reads. -/
theorem blockOut_congr (w0 w1 w2 w3 w0' w1' w2' w3' : Cert.Cqt.SWB.Idx → EReal) (x0 x1 x2 x3 x0' x1' x2' x3' : Cert.Cqt.SXB.Idx → EReal)
    (p p' : Fin 2048) (q : Fin 128)
    (hw0 : ∀ j c, w0 (ix2 j c) = w0' (ix2 j c)) (hw1 : ∀ j c, w1 (ix2 j c) = w1' (ix2 j c))
    (hw2 : ∀ j c, w2 (ix2 j c) = w2' (ix2 j c)) (hw3 : ∀ j c, w3 (ix2 j c) = w3' (ix2 j c))
    (hx0 : ∀ j, x0 (ix2 p j) = x0' (ix2 p' j)) (hx1 : ∀ j, x1 (ix2 p j) = x1' (ix2 p' j))
    (hx2 : ∀ j, x2 (ix2 p j) = x2' (ix2 p' j)) (hx3 : ∀ j, x3 (ix2 p j) = x3' (ix2 p' j)) :
    Cert.Cqt.blockOut w0 w1 w2 w3 x0 x1 x2 x3 p q = Cert.Cqt.blockOut w0' w1' w2' w3' x0' x1' x2' x3' p' q := by
  unfold Cert.Cqt.blockOut Cert.Cqt.blockAcc
  simp only [hw0, hw1, hw2, hw3, hx0, hx1, hx2, hx3]

/-! ## One point -/

/-- Row block 0 of the weight's block, loaded through its rectangle, is rows 0 … 0 + 511 of the block. -/
theorem ld_row0 (w : Vec Ideal S2048x256 .bf16) (j : Fin 512) (c : Fin 256) :
    View.ld w r0_0 (ix2 j c) = w (ix2 (Cert.Cqt.pos 0 j) c) := by
  show w (r0_0.idx (ix2 j c)) = _
  refine congrArg w (funext fun a => Fin.ext ?_)
  match a with
  | ⟨0, _⟩ => show 0 + 1 * j.val = 512 * 0 + j.val; omega
  | ⟨1, _⟩ => show 0 + 1 * c.val = c.val; omega

/-- Row block 1 of the weight's block, loaded through its rectangle, is rows 512 … 512 + 511 of the block. -/
theorem ld_row1 (w : Vec Ideal S2048x256 .bf16) (j : Fin 512) (c : Fin 256) :
    View.ld w r0_2 (ix2 j c) = w (ix2 (Cert.Cqt.pos 1 j) c) := by
  show w (r0_2.idx (ix2 j c)) = _
  refine congrArg w (funext fun a => Fin.ext ?_)
  match a with
  | ⟨0, _⟩ => show 512 + 1 * j.val = 512 * 1 + j.val; omega
  | ⟨1, _⟩ => show 0 + 1 * c.val = c.val; omega

/-- Row block 2 of the weight's block, loaded through its rectangle, is rows 1024 … 1024 + 511 of the block. -/
theorem ld_row2 (w : Vec Ideal S2048x256 .bf16) (j : Fin 512) (c : Fin 256) :
    View.ld w r0_3 (ix2 j c) = w (ix2 (Cert.Cqt.pos 2 j) c) := by
  show w (r0_3.idx (ix2 j c)) = _
  refine congrArg w (funext fun a => Fin.ext ?_)
  match a with
  | ⟨0, _⟩ => show 1024 + 1 * j.val = 512 * 2 + j.val; omega
  | ⟨1, _⟩ => show 0 + 1 * c.val = c.val; omega

/-- Row block 3 of the weight's block, loaded through its rectangle, is rows 1536 … 1536 + 511 of the block. -/
theorem ld_row3 (w : Vec Ideal S2048x256 .bf16) (j : Fin 512) (c : Fin 256) :
    View.ld w r0_4 (ix2 j c) = w (ix2 (Cert.Cqt.pos 3 j) c) := by
  show w (r0_4.idx (ix2 j c)) = _
  refine congrArg w (funext fun a => Fin.ext ?_)
  match a with
  | ⟨0, _⟩ => show 1536 + 1 * j.val = 512 * 3 + j.val; omega
  | ⟨1, _⟩ => show 0 + 1 * c.val = c.val; omega

/-- The body's result on the blocks of point `tv`, at block index `y`, is `tilesOut` at the array index `g` the block's
    index lands on: row `2048 tv + y 0`, column `y 1`. Stated over blocks and arrays as variables, the blocks given by
    what they hold. -/
theorem point_eq (X0 X1 X2 X3 : FVec Ideal S16384x512 .bf16) (W : FVec Ideal S2048x256 .bf16)
    (x0 x1 x2 x3 : Vec Ideal S2048x512 .bf16) (w : Vec Ideal S2048x256 .bf16) (tv : ℕ) (htv : tv < 8)
    (hx0 : ∀ (p : Fin 2048) (j : Fin 512), x0 (ix2 p j) = X0 (ix2 ⟨tv * 2048 + p.val, by have := p.isLt; omega⟩ j))
    (hx1 : ∀ (p : Fin 2048) (j : Fin 512), x1 (ix2 p j) = X1 (ix2 ⟨tv * 2048 + p.val, by have := p.isLt; omega⟩ j))
    (hx2 : ∀ (p : Fin 2048) (j : Fin 512), x2 (ix2 p j) = X2 (ix2 ⟨tv * 2048 + p.val, by have := p.isLt; omega⟩ j))
    (hx3 : ∀ (p : Fin 2048) (j : Fin 512), x3 (ix2 p j) = X3 (ix2 ⟨tv * 2048 + p.val, by have := p.isLt; omega⟩ j))
    (hw : ∀ (n : Fin 2048) (c : Fin 256), w (ix2 n c) = W (ix2 n c))
    (y : S2048x128.Idx) (g : S16384x128.Idx) (hg0 : (g 0).val = tv * 2048 + (y 0).val) (hg1 : (g 1).val = (y 1).val) :
    k0_pay1 (F := Ideal) (View.ld w r0_0) x0 (View.ld w r0_2) x1 (View.ld w r0_3) x2 (View.ld w r0_4) x3 y
      = tilesOut X0 X1 X2 X3 W g := by
  obtain ⟨p, q, rfl⟩ : ∃ (p : Fin 2048) (q : Fin 128), y = ix2 p q := ⟨y 0, y 1, eq_ix2 y⟩
  refine (Cert.Cqt.Payload.pay_apply (View.ld w r0_0) x0 (View.ld w r0_2) x1 (View.ld w r0_3) x2 (View.ld w r0_4) x3 p q).trans ?_
  unfold tilesOut
  have hq : (⟨(g 1).val, idx2_lt1 g⟩ : Fin 128) = q := Fin.ext hg1
  have hrow : (⟨(g 0).val, idx2_lt0 g⟩ : Fin 16384) = ⟨tv * 2048 + p.val, by have := p.isLt; omega⟩ := Fin.ext hg0
  rw [hq, hrow]
  exact blockOut_congr _ _ _ _ _ _ _ _ _ _ _ _ _ _ _ _ p ⟨0, by decide⟩ q
    (fun j c => (ld_row0 w j c).trans (hw _ _)) (fun j c => (ld_row1 w j c).trans (hw _ _))
    (fun j c => (ld_row2 w j c).trans (hw _ _)) (fun j c => (ld_row3 w j c).trans (hw _ _))
    (fun j => hx0 p j) (fun j => hx1 p j) (fun j => hx2 p j) (fun j => hx3 p j)

variable (m : (ℓ : Loc nD τ sig) → Buf (Elt Ideal) ℓ)

/-! ## What a point writes back -/

theorem hz : (![0, 0] : Fin 2 → Nat) = fun _ => 0 := funext fun a => by fin_cases a <;> rfl

/-- The printed index maps over the grid: the four operand windows and the result window are at block t on the rows, the
    weight window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block of the result is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- What point t writes back is block t of `tilesOut` of the five arrays as the region finds them. -/
theorem flushed_eq (c : Dev nD) (t : Fin cfg0.N) :
    (dats m 0 c).flushed 5 t = ((cfg0.win 5).blk t).view.read (Elt Ideal)
      (tilesOut (V m c main_v16) (V m c main_v17) (V m c main_v18) (V m c main_v19) (V m c main_v11)) := by
  show (cfg0.win 5).cut (grid0.coords t) ((dats m 0 c).after 5 t) = _
  rw [after0_5]
  unfold out0_5
  rw [View.canon_unit_zero hz]
  simp only [View.ld_unit_zero (S := S2048x512) hz]
  obtain ⟨e00, e01, e10, e11, e20, e21, e30, e31, e40, e41, e50, e51⟩ := idx_facts t
  have ht : t.val < 8 := lt_of_lt_of_eq (t.isLt : t.val < grid0.N) N_0
  funext y
  show k0_pay1 (F := Ideal) (View.ld (iblk m c 4 t) r0_0) (iblk m c 0 t) (View.ld (iblk m c 4 t) r0_2) (iblk m c 1 t)
      (View.ld (iblk m c 4 t) r0_3) (iblk m c 2 t) (View.ld (iblk m c 4 t) r0_4) (iblk m c 3 t) y
    = tilesOut (V m c main_v16) (V m c main_v17) (V m c main_v18) (V m c main_v19) (V m c main_v11)
        (((cfg0.win 5).blk t).view.emb y)
  refine point_eq (V m c main_v16) (V m c main_v17) (V m c main_v18) (V m c main_v19) (V m c main_v11)
    (iblk m c 0 t) (iblk m c 1 t) (iblk m c 2 t) (iblk m c 3 t) (iblk m c 4 t) t.val ht ?_ ?_ ?_ ?_ ?_ y
    (((cfg0.win 5).blk t).view.emb y) ?_ ?_
  · intro p j
    show V m c main_v16 (((cfg0.win 0).blk t).view.emb (ix2 p j)) = V m c main_v16 (ix2 ⟨t.val * 2048 + p.val, _⟩ j)
    refine congrArg (V m c main_v16) (funext fun a => Fin.ext ?_)
    match a with
    | ⟨0, _⟩ => show win0_0.index t (0 : Fin 2) * 2048 + 1 * p.val = t.val * 2048 + p.val; omega
    | ⟨1, _⟩ => show win0_0.index t (1 : Fin 2) * 512 + 1 * j.val = j.val; omega
  · intro p j
    show V m c main_v17 (((cfg0.win 1).blk t).view.emb (ix2 p j)) = V m c main_v17 (ix2 ⟨t.val * 2048 + p.val, _⟩ j)
    refine congrArg (V m c main_v17) (funext fun a => Fin.ext ?_)
    match a with
    | ⟨0, _⟩ => show win0_1.index t (0 : Fin 2) * 2048 + 1 * p.val = t.val * 2048 + p.val; omega
    | ⟨1, _⟩ => show win0_1.index t (1 : Fin 2) * 512 + 1 * j.val = j.val; omega
  · intro p j
    show V m c main_v18 (((cfg0.win 2).blk t).view.emb (ix2 p j)) = V m c main_v18 (ix2 ⟨t.val * 2048 + p.val, _⟩ j)
    refine congrArg (V m c main_v18) (funext fun a => Fin.ext ?_)
    match a with
    | ⟨0, _⟩ => show win0_2.index t (0 : Fin 2) * 2048 + 1 * p.val = t.val * 2048 + p.val; omega
    | ⟨1, _⟩ => show win0_2.index t (1 : Fin 2) * 512 + 1 * j.val = j.val; omega
  · intro p j
    show V m c main_v19 (((cfg0.win 3).blk t).view.emb (ix2 p j)) = V m c main_v19 (ix2 ⟨t.val * 2048 + p.val, _⟩ j)
    refine congrArg (V m c main_v19) (funext fun a => Fin.ext ?_)
    match a with
    | ⟨0, _⟩ => show win0_3.index t (0 : Fin 2) * 2048 + 1 * p.val = t.val * 2048 + p.val; omega
    | ⟨1, _⟩ => show win0_3.index t (1 : Fin 2) * 512 + 1 * j.val = j.val; omega
  · intro n cc
    show V m c main_v11 (((cfg0.win 4).blk t).view.emb (ix2 n cc)) = V m c main_v11 (ix2 n cc)
    refine congrArg (V m c main_v11) (funext fun a => Fin.ext ?_)
    match a with
    | ⟨0, _⟩ => show win0_4.index t (0 : Fin 2) * 2048 + 1 * n.val = n.val; omega
    | ⟨1, _⟩ => show win0_4.index t (1 : Fin 2) * 256 + 1 * cc.val = cc.val; omega
  · show win0_5.index t (0 : Fin 2) * 2048 + 1 * (y 0).val = t.val * 2048 + (y 0).val; omega
  · show win0_5.index t (1 : Fin 2) * 128 + 1 * (y 1).val = (y 1).val; omega

/-! ## The array after the run -/

/-- An index of the result is in point t's block iff each coordinate is in the block's range on its axis. -/
theorem mem_blk (t : Fin cfg0.N) (i : S16384x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v20).slice (win0_5.rect t)).set ↔ _
  rw [View.set_slice_whole, Rect.mem_set_unit]
  exact Iff.rfl

/-- Every index of the result is in the block of the point its row falls in: row g is in block g / 2048. -/
theorem cover (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- The result array after the run is `tilesOut` of the five arrays as the region finds them. -/
theorem final5 (c : Dev nD) : (dats m 0 c).arrAt 5 cfg0.N
    = tilesOut (V m c main_v16) (V m c main_v17) (V m c main_v18) (V m c main_v19) (V m c main_v11) :=
  (dats m 0 c).arrAt_eq_of_cover 5 _ (fun t _ => flushed_eq m c t) (cover)

end Cert.Cqt.KerBlocks

end
-- ==== Proof.KerResult.lean ====
/-
  The kernel program's result is the folded form of the constant-Q magnitude.

  After the region the host keeps rows 0 … 16380 and columns 0 … 83 of the result array [16384, 128], transposes them and
  adds a leading unit axis: entry (0, k, f) of the program's result is entry (f, k) of the array. That entry is the tile
  magnitude formed from row f of the four hop arrays — hop r of frame f, the samples x[512 (f + r) + j] = x[512 f + (512 r + j)]
  — and from columns k and 128 + k of the weight — the real and imaginary coefficients of bin k. Summed hop by hop from zero
  these are the inner products `acc` of the specification, so the entry is `kerOut` there.
-/
import proofs.«133678_j64733747085470_2_alg».proof.Proof.Gen.KernelIdeal.Frame
import proofs.«133678_j64733747085470_2_alg».proof.Proof.Spec
import proofs.«133678_j64733747085470_2_alg».proof.Proof.HostArrays
import proofs.«133678_j64733747085470_2_alg».proof.Proof.KerArrays
import proofs.«133678_j64733747085470_2_alg».proof.Proof.KerBlocks
import Idealize.ShloMosaic.Lib.StableHlo.Run
import Idealize.ShloMosaic.Lib.Pipeline.Value
import Idealize.ShloMosaic.Lib.ValueLayout

set_option maxRecDepth 16384

open scoped BigOperators

noncomputable section

namespace Cert.Cqt.KerResult

open Cert.KernelIdeal Cert.KernelIdeal.Gen Cert.Cqt.HostArrays Cert.Cqt.KerBlocks
open Idealize.ShloMosaic Idealize.ShloMosaic.TcCoe Idealize.ShloMosaic.Tactic Idealize.ShloMosaic.ValueIdx
open Idealize.SL Idealize.SL.Sem Idealize.ShloMosaic.StableHlo

/-! ## The host's last three steps -/

/-- Rows 0 … 16380 and columns 0 … 83 of the result array, transposed, under a leading unit axis. -/
def tail (A : FVec Ideal S16384x128 .f32) : FVec Ideal S1x84x16381 .f32 :=
  broadcastInDim S1x84x16381 ![1, 2] bcast_S84x16381_S1x84x16381_1_2
    (transpose S84x16381 [1, 0] (extractStridedSlice S16381x84 ![0, 0] A slices_S16384x128_S16381x84_0_0)
      transposes_S16381x84_S84x16381_1_0)

/-- Entry (0, k, f) is entry (f, k) of the array. -/
theorem tail_apply (A : FVec Ideal S16384x128 .f32) (i : S1x84x16381.Idx) (h1 : (i 1).val < 84) (h2 : (i 2).val < 16381) :
    tail A i = A (ix2 ⟨(i 2).val, by omega⟩ ⟨(i 1).val, by omega⟩) := by
  unfold tail
  refine (broadcastInDim_apply _ bcast_S84x16381_S1x84x16381_1_2 _ i (ix2 ⟨(i 1).val, h1⟩ ⟨(i 2).val, h2⟩) (fun a => match a with
    | ⟨0, _⟩ => by show (i 1).val = if (84 : Nat) = 1 then 0 else (i 1).val; rw [if_neg (by decide)]
    | ⟨1, _⟩ => by show (i 2).val = if (16381 : Nat) = 1 then 0 else (i 2).val; rw [if_neg (by decide)])).trans ?_
  refine (transpose_ix2_apply _ transposes_S16381x84_S84x16381_1_0 ⟨(i 1).val, h1⟩ ⟨(i 2).val, h2⟩).trans ?_
  exact extractStridedSlice_apply _ A slices_S16384x128_S16381x84_0_0 _ _ (fun a => by
    match a with
    | ⟨0, _⟩ => show (i 2).val = 0 + (i 2).val; omega
    | ⟨1, _⟩ => show (i 1).val = 0 + (i 1).val; omega)

/-! ## A row of the tiles against the specification -/

/-- One hop's share: row f of hop array r against row block r of the weight's column c is the specification's hop sum
    against the coefficients that column holds. -/
theorem hop_sum (x : FVec Ideal S8388608 .f32) (wc ws : FVec Ideal S1025x2048 .f32) (kr ki : FVec Ideal S84x1025 .f32)
    (r : ℕ) (hr : r < 4) (sl : S16392x512.Slices ![r, 0] S16384x512) (f : Fin 16381) (p0 : Fin 2048) (c : Fin 256)
    (C : Fin 2048 → EReal) (hC : ∀ n, weight wc ws kr ki (ix2 n c) = C n) :
    ∑ j : Fin 512, xrow (extractStridedSlice S16384x512 ![r, 0] (hops x) sl) ⟨f.val, by have := f.isLt; omega⟩ (ix2 p0 j)
        * wblk (weight wc ws kr ki) ⟨r, hr⟩ (ix2 j c)
      = Cert.Cqt.hopSum x C f ⟨r, hr⟩ := by
  unfold Cert.Cqt.hopSum
  refine Finset.sum_congr rfl fun j _ => ?_
  show extractStridedSlice S16384x512 ![r, 0] (hops x) sl (ix2 ⟨f.val, by have := f.isLt; omega⟩ j)
      * weight wc ws kr ki (ix2 (Cert.Cqt.pos ⟨r, hr⟩ j) c) = _
  rw [hop_apply x r sl ⟨f.val, by have := f.isLt; omega⟩ j (by have := f.isLt; show r + f.val < 16384; omega), hC]
  refine congrArg (fun z => x z * C (Cert.Cqt.pos ⟨r, hr⟩ j)) ?_
  exact congrArg ix1 (Fin.ext (by show 512 * (r + f.val) + j.val = 512 * f.val + (512 * r + j.val); omega))

/-- A column of the tile's accumulator at row f: the specification's inner product against the coefficients the column holds. -/
theorem acc_eq (x : FVec Ideal S8388608 .f32) (wc ws : FVec Ideal S1025x2048 .f32) (kr ki : FVec Ideal S84x1025 .f32)
    (f : Fin 16381) (p0 : Fin 2048) (c : Fin 256) (C : Fin 2048 → EReal) (hC : ∀ n, weight wc ws kr ki (ix2 n c) = C n) :
    Cert.Cqt.blockAcc (wblk (weight wc ws kr ki) 0) (wblk (weight wc ws kr ki) 1) (wblk (weight wc ws kr ki) 2) (wblk (weight wc ws kr ki) 3)
        (xrow (extractStridedSlice S16384x512 ![0, 0] (hops x) slices_S16392x512_S16384x512_0_0) ⟨f.val, by have := f.isLt; omega⟩)
        (xrow (extractStridedSlice S16384x512 ![1, 0] (hops x) slices_S16392x512_S16384x512_1_0) ⟨f.val, by have := f.isLt; omega⟩)
        (xrow (extractStridedSlice S16384x512 ![2, 0] (hops x) slices_S16392x512_S16384x512_2_0) ⟨f.val, by have := f.isLt; omega⟩)
        (xrow (extractStridedSlice S16384x512 ![3, 0] (hops x) slices_S16392x512_S16384x512_3_0) ⟨f.val, by have := f.isLt; omega⟩)
        p0 c
      = Cert.Cqt.acc x C f := by
  unfold Cert.Cqt.blockAcc Cert.Cqt.acc
  exact congrArg₂ (· + ·) (congrArg₂ (· + ·) (congrArg₂ (· + ·) (congrArg (0 + ·)
    (hop_sum x wc ws kr ki 0 (by decide) slices_S16392x512_S16384x512_0_0 f p0 c C hC))
    (hop_sum x wc ws kr ki 1 (by decide) slices_S16392x512_S16384x512_1_0 f p0 c C hC))
    (hop_sum x wc ws kr ki 2 (by decide) slices_S16392x512_S16384x512_2_0 f p0 c C hC))
    (hop_sum x wc ws kr ki 3 (by decide) slices_S16392x512_S16384x512_3_0 f p0 c C hC)

/-- Entry (f, k), f < 16381 and k < 84, of the tiles' array over the hop arrays and the weight is the folded form. -/
theorem tiles_apply (x : FVec Ideal S8388608 .f32) (wc ws : FVec Ideal S1025x2048 .f32) (kr ki : FVec Ideal S84x1025 .f32)
    (f : Fin 16381) (k : Fin 84) :
    tilesOut (extractStridedSlice S16384x512 ![0, 0] (hops x) slices_S16392x512_S16384x512_0_0)
        (extractStridedSlice S16384x512 ![1, 0] (hops x) slices_S16392x512_S16384x512_1_0)
        (extractStridedSlice S16384x512 ![2, 0] (hops x) slices_S16392x512_S16384x512_2_0)
        (extractStridedSlice S16384x512 ![3, 0] (hops x) slices_S16392x512_S16384x512_3_0)
        (weight wc ws kr ki) (ix2 ⟨f.val, by have := f.isLt; omega⟩ ⟨k.val, by have := k.isLt; omega⟩)
      = Ideal.sqrt (Cert.Cqt.acc x (Cert.Cqt.coefRe wc ws kr ki k) f * Cert.Cqt.acc x (Cert.Cqt.coefRe wc ws kr ki k) f
          + Cert.Cqt.acc x (Cert.Cqt.coefIm wc ws kr ki k) f * Cert.Cqt.acc x (Cert.Cqt.coefIm wc ws kr ki k) f) := by
  unfold tilesOut Cert.Cqt.blockOut
  have hre := acc_eq x wc ws kr ki f ⟨0, by decide⟩ ⟨k.val, by have := k.isLt; omega⟩ (Cert.Cqt.coefRe wc ws kr ki k)
    (fun n => weight_re wc ws kr ki n k)
  have him := acc_eq x wc ws kr ki f ⟨0, by decide⟩ ⟨128 + k.val, by have := k.isLt; omega⟩ (Cert.Cqt.coefIm wc ws kr ki k)
    (fun n => weight_im wc ws kr ki n k)
  exact congrArg Ideal.sqrt (congrArg₂ (· + ·) (congrArg₂ (· * ·) hre hre) (congrArg₂ (· * ·) him him))

/-! ## The program's result -/

variable (m : (ℓ : Loc nD τ sig) → Buf (Elt Ideal) ℓ)

set_option maxHeartbeats 2000000 in
/-- The program's result after the host's last steps is `tail` of the result array after the region. -/
theorem result_tail (c : Dev nD) :
    Pipeline.afterTail₀ cfgs (dats m) 0 (V0 m) [hostOps1] c main_v23 = tail ((dats m 0 c).arrAt 5 cfg0.N) := by
  unfold Pipeline.afterTail₀
  show StableHlo.after hostOps1 _ (Proc.devRef .tc main_v23) = _
  after_results
  rw [Pipeline.withArrays_arr spec0 launch0.win.arr_inj c _ _ 5]
  rfl

/-- The program's result is the folded form of the argument arrays. -/
theorem result_eq (c : Dev nD) :
    Pipeline.afterTail₀ cfgs (dats m) 0 (V0 m) [hostOps1] c main_v23
      = Cert.Cqt.kerOut (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_tail, KerBlocks.final5, KerArrays.V_v16, KerArrays.V_v17, KerArrays.V_v18, KerArrays.V_v19, KerArrays.V_v11]
  funext i
  have h1 : (i 1).val < 84 := (i 1).isLt
  have h2 : (i 2).val < 16381 := (i 2).isLt
  rw [tail_apply _ i h1 h2]
  exact tiles_apply _ _ _ _ _ ⟨(i 2).val, h2⟩ ⟨(i 1).val, h1⟩

end Cert.Cqt.KerResult

end
-- ==== Proof.lean ====
/-
  A constant-Q transform magnitude: the kernel program against its reference, over the extended reals.

  The reference frames the signal (frame f is the 2048 samples x[512 f + n]), transforms every frame with the cosine and
  sine tables, projects the 1025 frequency bins on the 84 constant-Q bins with the complex kernel kr + i·ki, and takes the
  magnitude (Spec.lean `refOut`; RefSide.lean reads the reference program as that function). The kernel program projects the
  tables first — the coefficients kr·wc − ki·ws and kr·ws + ki·wc — and then takes one inner product per frame and bin,
  tile by tile and hop by hop (Spec.lean `kerOut`; KerResult.lean reads the kernel program as that function: HostArrays.lean
  and KerArrays.lean the arrays its host code prepares, Payload.lean and KerBlocks.lean the tiles, KerResult.lean the host's
  last steps). The two functions are one finite double sum in two orders, equal when every entry is a real number
  (Algebra.lean), which the precondition says of every argument (Finite.lean). The frames of the two kernel programs are
  the generated ones; the reference's is its generated run with the result forgotten; no operation was rewritten between
  the kernel program and its idealization.
-/
import proofs.«133678_j64733747085470_2_alg».proof.Defs
import proofs.«133678_j64733747085470_2_alg».proof.Proof.Gen.Kernel
import proofs.«133678_j64733747085470_2_alg».proof.Proof.Gen.Kernel.Skeleton
import proofs.«133678_j64733747085470_2_alg».proof.Proof.Gen.Kernel.Launch
import proofs.«133678_j64733747085470_2_alg».proof.Proof.Gen.Kernel.Points
import proofs.«133678_j64733747085470_2_alg».proof.Proof.Gen.Kernel.Frame
import proofs.«133678_j64733747085470_2_alg».proof.Proof.Gen.KernelIdeal
import proofs.«133678_j64733747085470_2_alg».proof.Proof.Gen.KernelIdeal.Skeleton
import proofs.«133678_j64733747085470_2_alg».proof.Proof.Gen.KernelIdeal.Launch
import proofs.«133678_j64733747085470_2_alg».proof.Proof.Gen.KernelIdeal.Points
import proofs.«133678_j64733747085470_2_alg».proof.Proof.Gen.KernelIdeal.Frame
import proofs.«133678_j64733747085470_2_alg».proof.Proof.Gen.ReferenceIdeal
import proofs.«133678_j64733747085470_2_alg».proof.Proof.Gen.ReferenceIdeal.Run
import proofs.«133678_j64733747085470_2_alg».proof.Proof.Gen.ReferenceIdeal.Read
import proofs.«133678_j64733747085470_2_alg».proof.Proof.Gen.Pre_finite_inputs
import proofs.«133678_j64733747085470_2_alg».proof.Proof.Spec
import proofs.«133678_j64733747085470_2_alg».proof.Proof.Algebra
import proofs.«133678_j64733747085470_2_alg».proof.Proof.Finite
import proofs.«133678_j64733747085470_2_alg».proof.Proof.RefSide
import proofs.«133678_j64733747085470_2_alg».proof.Proof.KerResult
import Idealize.ShloMosaic.Adequacy
import Idealize.ShloMosaic.Init

noncomputable section

namespace Cert.Proof

open Idealize.ShloMosaic Idealize.SL.Sem

/-- The kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with the two-stage magnitude of the arguments: the reference
    computes it, and the kernel program computes the folded form, which is the same function of real arguments. -/
theorem algebraic : Cert.algebraic_KernelIdeal_ReferenceIdeal := by
  intro m ρ m' ρ' hpre hagree
  refine ⟨fun c => Cert.Cqt.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_main m ρ)
    obtain ⟨h0, h1, h2, h3, h4⟩ := Cert.Cqt.Finite.args_real _ _ _ _ _ (hpre c)
    refine ⟨?_, ?_, ?_, ?_, ?_, ?_⟩
    · exact ((h c).2 Cert.KernelIdeal.main_v23 (Pipeline.mem_restRefs_of Cert.KernelIdeal.main_v23 (by decide) (by decide))).trans
        ((Cert.Cqt.KerResult.result_eq m c).trans (Cert.Cqt.kerOut_eq_refOut _ _ _ _ _ h0 h1 h2 h3 h4))
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Gen.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Gen.dats m) c)
  · refine (θ_run Cert.ReferenceIdeal.defs _ _).mono (fun r h c => ⟨?_, (h c).2⟩)
      (Cert.ReferenceIdeal.Value.run (F := Ideal) m' ρ')
    rw [(h c).1, Cert.ReferenceIdeal.Read.val_main_v28_eq, Cert.Cqt.RefSide.ref_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
